-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v4)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_v59) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x256 : Shape := ⟨3, ![16, 2048, 256]⟩
abbrev S16x2048 : Shape := ⟨2, ![16, 2048]⟩
abbrev S_ : Shape := ⟨0, ![]⟩

class Facts : Prop where
  bcast_S_S16x2048x256 : S_.BroadcastsInDim S16x2048x256 (![] : Fin 0 → Fin S16x2048x256.rank)
  reducesTo_S16x2048x256_S_d0_1_2 : S16x2048x256.ReducesTo [0, 1, 2] S_
  h_S_ : 0 < S_.numel

variable [Facts]

def fn {F : FTy → Type} [FloatOps F] (main_arg0 : FVec F S16x2048x256 .f32) (main_arg1 : IVec S16x2048 32) (main_arg2 : FVec F S16x2048x256 .f32) (main_arg3 : IVec S16x2048 32) : IVec S_ 1 :=
  let main_v0 : FVec F S16x2048x256 .f32 := Host.absf main_arg0
  let main_cst : FVec F S_ .f32 := constant S_ .f32 0x7F800000#32
  let main_v1 : FVec F S16x2048x256 .f32 := broadcastInDim S16x2048x256 ![] bcast_S_S16x2048x256 main_cst
  let main_v2 : IVec S16x2048x256 1 := cmpf .olt main_v0 main_v1
  let main_c : IVec S_ 1 := constantI S_ 1 1#1
  let main_v3 : IVec S_ 1 := (fun x v => Host.reduce IntOp.andi x v reducesTo_S16x2048x256_S_d0_1_2 h_S_) main_v2 main_c
  let main_v4 : FVec F S16x2048x256 .f32 := Host.absf main_arg2
  let main_cst_0 : FVec F S_ .f32 := constant S_ .f32 0x7F800000#32
  let main_v5 : FVec F S16x2048x256 .f32 := broadcastInDim S16x2048x256 ![] bcast_S_S16x2048x256 main_cst_0
  let main_v6 : IVec S16x2048x256 1 := cmpf .olt main_v4 main_v5
  let main_c_1 : IVec S_ 1 := constantI S_ 1 1#1
  let main_v7 : IVec S_ 1 := (fun x v => Host.reduce IntOp.andi x v reducesTo_S16x2048x256_S_d0_1_2 h_S_) main_v6 main_c_1
  let main_v8 : IVec S_ 1 := andi main_v3 main_v7
  main_v8
-- ==== Kernel.lean ====
abbrev S16x2048x256 : Shape := ⟨3, ![16, 2048, 256]⟩
abbrev S16x2048 : Shape := ⟨2, ![16, 2048]⟩
abbrev S16x1x2048 : Shape := ⟨3, ![16, 1, 2048]⟩
abbrev S1x512x256 : Shape := ⟨3, ![1, 512, 256]⟩
abbrev S1x1x512 : Shape := ⟨3, ![1, 1, 512]⟩
abbrev S1x2048x256 : Shape := ⟨3, ![1, 2048, 256]⟩
abbrev S1x1x2048 : Shape := ⟨3, ![1, 1, 2048]⟩
abbrev S512x256 : Shape := ⟨2, ![512, 256]⟩
abbrev S2048x256 : Shape := ⟨2, ![2048, 256]⟩
abbrev S256x2048 : Shape := ⟨2, ![256, 2048]⟩
abbrev S512x2048 : Shape := ⟨2, ![512, 2048]⟩
abbrev S2048 : Shape := ⟨1, ![2048]⟩
abbrev S1x2048 : Shape := ⟨2, ![1, 2048]⟩
abbrev S512 : Shape := ⟨1, ![512]⟩
abbrev S512x1 : Shape := ⟨2, ![512, 1]⟩

abbrev nBuf : Space → Nat
  | .hbm => 14
  | .vmem => 20
  | .smem => 0
  | _ => 0

abbrev bufTy : (tb : Table) → Fin (tcTables nBuf tb) → BufTy
  | .hbm, ⟨0, _⟩ => ⟨S16x2048x256, .f32⟩
  | .hbm, ⟨1, _⟩ => ⟨S16x2048, .i32⟩
  | .hbm, ⟨2, _⟩ => ⟨S16x2048x256, .f32⟩
  | .hbm, ⟨3, _⟩ => ⟨S16x2048, .i32⟩
  | .hbm, ⟨4, _⟩ => ⟨S16x2048, .f32⟩
  | .hbm, ⟨5, _⟩ => ⟨S16x1x2048, .f32⟩
  | .hbm, ⟨6, _⟩ => ⟨S16x2048, .f32⟩
  | .hbm, ⟨7, _⟩ => ⟨S16x1x2048, .f32⟩
  | .hbm, ⟨8, _⟩ => ⟨S16x2048x256, .f32⟩
  | .hbm, ⟨9, _⟩ => ⟨S16x2048, .f32⟩
  | .hbm, ⟨10, _⟩ => ⟨S16x1x2048, .f32⟩
  | .hbm, ⟨11, _⟩ => ⟨S16x2048, .f32⟩
  | .hbm, ⟨12, _⟩ => ⟨S16x1x2048, .f32⟩
  | .hbm, ⟨13, _⟩ => ⟨S16x2048x256, .f32⟩
  | .local _ .vmem, ⟨0, _⟩ => ⟨S1x512x256, .f32⟩
  | .local _ .vmem, ⟨1, _⟩ => ⟨S1x512x256, .f32⟩
  | .local _ .vmem, ⟨2, _⟩ => ⟨S1x1x512, .f32⟩
  | .local _ .vmem, ⟨3, _⟩ => ⟨S1x1x512, .f32⟩
  | .local _ .vmem, ⟨4, _⟩ => ⟨S1x2048x256, .f32⟩
  | .local _ .vmem, ⟨5, _⟩ => ⟨S1x2048x256, .f32⟩
  | .local _ .vmem, ⟨6, _⟩ => ⟨S1x1x2048, .f32⟩
  | .local _ .vmem, ⟨7, _⟩ => ⟨S1x1x2048, .f32⟩
  | .local _ .vmem, ⟨8, _⟩ => ⟨S1x512x256, .f32⟩
  | .local _ .vmem, ⟨9, _⟩ => ⟨S1x512x256, .f32⟩
  | .local _ .vmem, ⟨10, _⟩ => ⟨S1x512x256, .f32⟩
  | .local _ .vmem, ⟨11, _⟩ => ⟨S1x512x256, .f32⟩
  | .local _ .vmem, ⟨12, _⟩ => ⟨S1x1x512, .f32⟩
  | .local _ .vmem, ⟨13, _⟩ => ⟨S1x1x512, .f32⟩
  | .local _ .vmem, ⟨14, _⟩ => ⟨S1x2048x256, .f32⟩
  | .local _ .vmem, ⟨15, _⟩ => ⟨S1x2048x256, .f32⟩
  | .local _ .vmem, ⟨16, _⟩ => ⟨S1x1x2048, .f32⟩
  | .local _ .vmem, ⟨17, _⟩ => ⟨S1x1x2048, .f32⟩
  | .local _ .vmem, ⟨18, _⟩ => ⟨S1x512x256, .f32⟩
  | .local _ .vmem, ⟨19, _⟩ => ⟨S1x512x256, .f32⟩
  | _, _ => ⟨S16x2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg2_1 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg4_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem2_1 : DmaSem sig := 15
abbrev cc1_sem3_0 : DmaSem sig := 16
abbrev cc1_sem3_1 : DmaSem sig := 17
abbrev cc1_sem4_0 : DmaSem sig := 18
abbrev cc1_sem4_1 : DmaSem sig := 19

abbrev nD : Nat := 1
abbrev τ : Topo := Topo.v7x

variable {F : FTy → Type} [FloatOps F]

abbrev grid0 : Pipeline.Grid := ⟨2, ![16, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![16, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x2048x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x1x2048 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x512x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

class Facts₀ : Prop where
  shapeCasts_S16x2048_S16x1x2048 : S16x2048.ShapeCasts S16x1x2048
  inb_S1x512x256_S1x512x256_0_0_0 : ∀ a, (![0, 0, 0] : Fin 3 → Nat) a + S1x512x256.size a ≤ S1x512x256.size a
  h_S1x512x256 : 0 < S1x512x256.numel
  shapeCasts_S1x512x256_S512x256 : S1x512x256.ShapeCasts S512x256
  bitsLt_bf16_f32 : FTy.bits .bf16 < FTy.bits .f32
  inb_S1x2048x256_S1x2048x256_0_0_0 : ∀ a, (![0, 0, 0] : Fin 3 → Nat) a + S1x2048x256.size a ≤ S1x2048x256.size a
  h_S1x2048x256 : 0 < S1x2048x256.numel
  shapeCasts_S1x2048x256_S2048x256 : S1x2048x256.ShapeCasts S2048x256
  transposes_S2048x256_p1_0_S256x2048 : S2048x256.Transposes [1, 0] S256x2048
  inb_S1x1x2048_S1x1x2048_0_0_0 : ∀ a, (![0, 0, 0] : Fin 3 → Nat) a + S1x1x2048.size a ≤ S1x1x2048.size a
  h_S1x1x2048 : 0 < S1x1x2048.numel
  shapeCasts_S1x1x2048_S2048 : S1x1x2048.ShapeCasts S2048
  shapeCasts_S2048_S1x2048 : S2048.ShapeCasts S1x2048
  broadcasts_S1x2048_S512x2048 : S1x2048.Broadcasts S512x2048
  reduces_S512x2048_S512 : S512x2048.Reduces [1] S512
  shapeCasts_S512_S512x1 : S512.ShapeCasts S512x1
  broadcasts_S512x1_S512x2048 : S512x1.Broadcasts S512x2048
  inb_S1x1x512_S1x1x512_0_0_0 : ∀ a, (![0, 0, 0] : Fin 3 → Nat) a + S1x1x512.size a ≤ S1x1x512.size a
  h_S1x1x512 : 0 < S1x1x512.numel
  shapeCasts_S1x1x512_S512 : S1x1x512.ShapeCasts S512
  broadcasts_S512x1_S512x256 : S512x1.Broadcasts S512x256
  shapeCasts_S512x256_S1x512x256 : S512x256.ShapeCasts S1x512x256
  dot_S512x256_S256x2048_S512x2048_1_0_0_1_n_n_wf : DotDims.WF S512x256 S256x2048 S512x2048 [1] [0] [0] [1] [] []
  dot_S512x2048_S2048x256_S512x256_1_0_0_1_n_n_wf : DotDims.WF S512x2048 S2048x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x256.size a ≤ S16x2048x256.size a
  hwx0_0 : ∀ i : grid0.Coords, EltTy.bits .f32 = 32 ∨ (Rect.block (s := S16x2048x256) S1x512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S16x1x2048.size a
  hwx0_1 : ∀ i : grid0.Coords, EltTy.bits .f32 = 32 ∨ (Rect.block (s := S16x1x2048) S1x1x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x256.size a ≤ S16x2048x256.size a
  hwx0_2 : ∀ i : grid0.Coords, EltTy.bits .f32 = 32 ∨ (Rect.block (s := S16x2048x256) S1x2048x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x2048.size a ≤ S16x1x2048.size a
  hwx0_3 : ∀ i : grid0.Coords, EltTy.bits .f32 = 32 ∨ (Rect.block (s := S16x1x2048) S1x1x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x512x256.size a ≤ S16x2048x256.size a
  hwx0_4 : ∀ i : grid0.Coords, EltTy.bits .f32 = 32 ∨ (Rect.block (s := S16x2048x256) S1x512x256.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x256.size a ≤ S16x2048x256.size a
  hwx1_0 : ∀ i : grid1.Coords, EltTy.bits .f32 = 32 ∨ (Rect.block (s := S16x2048x256) S1x512x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x512.size a ≤ S16x1x2048.size a
  hwx1_1 : ∀ i : grid1.Coords, EltTy.bits .f32 = 32 ∨ (Rect.block (s := S16x1x2048) S1x1x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x2048x256.size a ≤ S16x2048x256.size a
  hwx1_2 : ∀ i : grid1.Coords, EltTy.bits .f32 = 32 ∨ (Rect.block (s := S16x2048x256) S1x2048x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x2048.size a ≤ S16x1x2048.size a
  hwx1_3 : ∀ i : grid1.Coords, EltTy.bits .f32 = 32 ∨ (Rect.block (s := S16x1x2048) S1x1x2048.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x512x256.size a ≤ S16x2048x256.size a
  hwx1_4 : ∀ i : grid1.Coords, EltTy.bits .f32 = 32 ∨ (Rect.block (s := S16x2048x256) S1x512x256.size (cc1_transform_4 i) (hinb1_4 i)).WholeWords (EltTy.packing .f32)

variable [Facts₀]

def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf
def dot_S512x2048_S2048x256_S512x256_1_0_0_1_n_n : DotDims S512x2048 S2048x256 S512x256 where
  lhsContracting := [1]
  rhsContracting := [0]
  lhsNonContracting := [0]
  rhsNonContracting := [1]
  lhsBatch := []
  rhsBatch := []
  wf := dot_S512x2048_S2048x256_S512x256_1_0_0_1_n_n_wf

abbrev win0_0 : Pipeline.Window sig grid0 :=
  Pipeline.Window.ofSpec (Memref.whole main_arg0) S1x512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg2) S1x512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v6) S1x1x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg0) S1x2048x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1x1x2048.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v9) S1x512x256.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S16x2048x256 : Shape := ⟨3, ![16, 2048, 256]⟩
abbrev S16x2048 : Shape := ⟨2, ![16, 2048]⟩
abbrev S_ : Shape := ⟨0, ![]⟩
abbrev S16x2048x2048 : Shape := ⟨3, ![16, 2048, 2048]⟩
abbrev S16x1x2048 : Shape := ⟨3, ![16, 1, 2048]⟩
abbrev S16x2048x1 : Shape := ⟨3, ![16, 2048, 1]⟩

abbrev nBuf : Space → Nat
  | .hbm => 76
  | .vmem => 0
  | .smem => 0
  | _ => 0

abbrev bufTy : (tb : Table) → Fin (tcTables nBuf tb) → BufTy
  | .hbm, ⟨0, _⟩ => ⟨S16x2048x256, .f32⟩
  | .hbm, ⟨1, _⟩ => ⟨S16x2048, .i32⟩
  | .hbm, ⟨2, _⟩ => ⟨S16x2048x256, .f32⟩
  | .hbm, ⟨3, _⟩ => ⟨S16x2048, .i32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S16x2048x2048, .f32⟩
  | .hbm, ⟨9, _⟩ => ⟨S16x2048x2048, .f32⟩
  | .hbm, ⟨10, _⟩ => ⟨S16x2048x2048, .f32⟩
  | .hbm, ⟨11, _⟩ => ⟨S16x2048, .f32⟩
  | .hbm, ⟨12, _⟩ => ⟨S16x2048, .f32⟩
  | .hbm, ⟨13, _⟩ => ⟨S16x1x2048, .f32⟩
  | .hbm, ⟨14, _⟩ => ⟨S16x2048x2048, .f32⟩
  | .hbm, ⟨15, _⟩ => ⟨S16x2048x2048, .f32⟩
  | .hbm, ⟨16, _⟩ => ⟨S_, .f32⟩
  | .hbm, ⟨17, _⟩ => ⟨S16x2048, .f32⟩
  | .hbm, ⟨18, _⟩ => ⟨S_, .f32⟩
  | .hbm, ⟨19, _⟩ => ⟨S16x2048, .f32⟩
  | .hbm, ⟨20, _⟩ => ⟨S16x2048, .f32⟩
  | .hbm, ⟨21, _⟩ => ⟨S16x2048x1, .f32⟩
  | .hbm, ⟨22, _⟩ => ⟨S16x2048x2048, .f32⟩
  | .hbm, ⟨23, _⟩ => ⟨S16x2048x2048, .f32⟩
  | .hbm, ⟨24, _⟩ => ⟨S16x2048x2048, .f32⟩
  | .hbm, ⟨25, _⟩ => ⟨S_, .f32⟩
  | .hbm, ⟨26, _⟩ => ⟨S16x2048, .f32⟩
  | .hbm, ⟨27, _⟩ => ⟨S16x2048x1, .f32⟩
  | .hbm, ⟨28, _⟩ => ⟨S16x2048x2048, .f32⟩
  | .hbm, ⟨29, _⟩ => ⟨S16x2048x2048, .f32⟩
  | .hbm, ⟨30, _⟩ => ⟨S16x2048x2048, .f32⟩
  | .hbm, ⟨31, _⟩ => ⟨S16x2048x2048, .f32⟩
  | .hbm, ⟨32, _⟩ => ⟨S_, .f32⟩
  | .hbm, ⟨33, _⟩ => ⟨S16x2048, .f32⟩
  | .hbm, ⟨34, _⟩ => ⟨S16x2048x1, .f32⟩
  | .hbm, ⟨35, _⟩ => ⟨S_, .f32⟩
  | .hbm, ⟨36, _⟩ => ⟨S16x2048x1, .f32⟩
  | .hbm, ⟨37, _⟩ => ⟨S16x2048x1, .f32⟩
  | .hbm, ⟨38, _⟩ => ⟨S16x2048x2048, .f32⟩
  | .hbm, ⟨39, _⟩ => ⟨S16x2048x2048, .f32⟩
  | .hbm, ⟨40, _⟩ => ⟨S16x2048x2048, .f32⟩
  | .hbm, ⟨41, _⟩ => ⟨S16x1x2048, .f32⟩
  | .hbm, ⟨42, _⟩ => ⟨S16x2048x2048, .f32⟩
  | .hbm, ⟨43, _⟩ => ⟨S16x2048x2048, .f32⟩
  | .hbm, ⟨44, _⟩ => ⟨S_, .f32⟩
  | .hbm, ⟨45, _⟩ => ⟨S16x2048, .f32⟩
  | .hbm, ⟨46, _⟩ => ⟨S_, .f32⟩
  | .hbm, ⟨47, _⟩ => ⟨S16x2048, .f32⟩
  | .hbm, ⟨48, _⟩ => ⟨S16x2048, .f32⟩
  | .hbm, ⟨49, _⟩ => ⟨S16x2048x1, .f32⟩
  | .hbm, ⟨50, _⟩ => ⟨S16x2048x2048, .f32⟩
  | .hbm, ⟨51, _⟩ => ⟨S16x2048x2048, .f32⟩
  | .hbm, ⟨52, _⟩ => ⟨S16x2048x2048, .f32⟩
  | .hbm, ⟨53, _⟩ => ⟨S_, .f32⟩
  | .hbm, ⟨54, _⟩ => ⟨S16x2048, .f32⟩
  | .hbm, ⟨55, _⟩ => ⟨S16x2048x1, .f32⟩
  | .hbm, ⟨56, _⟩ => ⟨S16x2048x2048, .f32⟩
  | .hbm, ⟨57, _⟩ => ⟨S16x2048x2048, .f32⟩
  | .hbm, ⟨58, _⟩ => ⟨S16x2048x2048, .f32⟩
  | .hbm, ⟨59, _⟩ => ⟨S16x2048x2048, .f32⟩
  | .hbm, ⟨60, _⟩ => ⟨S_, .f32⟩
  | .hbm, ⟨61, _⟩ => ⟨S16x2048, .f32⟩
  | .hbm, ⟨62, _⟩ => ⟨S16x2048x1, .f32⟩
  | .hbm, ⟨63, _⟩ => ⟨S_, .f32⟩
  | .hbm, ⟨64, _⟩ => ⟨S16x2048x1, .f32⟩
  | .hbm, ⟨65, _⟩ => ⟨S16x2048x1, .f32⟩
  | .hbm, ⟨66, _⟩ => ⟨S16x2048x2048, .f32⟩
  | .hbm, ⟨67, _⟩ => ⟨S16x2048x2048, .f32⟩
  | .hbm, ⟨68, _⟩ => ⟨S16x2048x256, .f32⟩
  | .hbm, ⟨69, _⟩ => ⟨S16x2048x1, .f32⟩
  | .hbm, ⟨70, _⟩ => ⟨S16x2048x256, .f32⟩
  | .hbm, ⟨71, _⟩ => ⟨S16x2048x256, .f32⟩
  | .hbm, ⟨72, _⟩ => ⟨S16x2048x256, .f32⟩
  | .hbm, ⟨73, _⟩ => ⟨S16x2048x1, .f32⟩
  | .hbm, ⟨74, _⟩ => ⟨S16x2048x256, .f32⟩
  | .hbm, ⟨75, _⟩ => ⟨S16x2048x256, .f32⟩
  | _, _ => ⟨S16x2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_cst_7 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_8 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_cst_9 : Ref sig .tc := ⟨.hbm, 60, rfl⟩
abbrev main_v46 : Ref sig .tc := ⟨.hbm, 61, rfl⟩
abbrev main_v47 : Ref sig .tc := ⟨.hbm, 62, rfl⟩
abbrev main_cst_10 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩

abbrev nD : Nat := 1
abbrev τ : Topo := Topo.v7x

variable {F : FTy → Type} [FloatOps F]

class Facts₀ : Prop where
  bcast_S_S16x2048x2048 : S_.BroadcastsInDim S16x2048x2048 (![] : Fin 0 → Fin S16x2048x2048.rank)
  bcast_S16x2048_S16x1x2048_0_2 : S16x2048.BroadcastsInDim S16x1x2048 (![0, 2] : Fin 2 → Fin S16x1x2048.rank)
  bcast_S16x1x2048_S16x2048x2048_0_1_2 : S16x1x2048.BroadcastsInDim S16x2048x2048 (![0, 1, 2] : Fin 3 → Fin S16x2048x2048.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  bcast_S_S16x2048x1 : S_.BroadcastsInDim S16x2048x1 (![] : Fin 0 → Fin S16x2048x1.rank)
  transposes_S16x2048x2048_S16x2048x2048_0_2_1 : S16x2048x2048.Transposes [0, 2, 1] S16x2048x2048
  bcast_S16x2048x1_S16x2048x256_0_1_2 : S16x2048x1.BroadcastsInDim S16x2048x256 (![0, 1, 2] : Fin 3 → Fin S16x2048x256.rank)
  dot_S16x2048x256_S16x2048x256_S16x2048x2048_2_2_1_1_0_0_wf : DotDims.WF S16x2048x256 S16x2048x256 S16x2048x2048 [2] [2] [1] [1] [0] [0]
  dot_S16x2048x2048_S16x2048x256_S16x2048x256_2_1_1_2_0_0_wf : DotDims.WF S16x2048x2048 S16x2048x256 S16x2048x256 [2] [1] [1] [2] [0] [0]

variable [Facts₀]

def dot_S16x2048x256_S16x2048x256_S16x2048x2048_2_2_1_1_0_0 : DotDims S16x2048x256 S16x2048x256 S16x2048x2048 where
  lhsContracting := [2]
  rhsContracting := [2]
  lhsNonContracting := [1]
  rhsNonContracting := [1]
  lhsBatch := [0]
  rhsBatch := [0]
  wf := dot_S16x2048x256_S16x2048x256_S16x2048x2048_2_2_1_1_0_0_wf
def dot_S16x2048x2048_S16x2048x256_S16x2048x256_2_1_1_2_0_0 : DotDims S16x2048x2048 S16x2048x256 S16x2048x256 where
  lhsContracting := [2]
  rhsContracting := [1]
  lhsNonContracting := [1]
  rhsNonContracting := [2]
  lhsBatch := [0]
  rhsBatch := [0]
  wf := dot_S16x2048x2048_S16x2048x256_S16x2048x256_2_1_1_2_0_0_wf

class Facts : Prop extends Facts₀ where

variable [Facts]
-- ==== Proof.KernelRun.lean ====
/-
  The idealized kernel's run, with its two result buffers named.

  Every weakly fair execution of the program terminates without a fault; at the end the argument buffers hold what
  they were launched with, and each of the two result buffers holds the contents the program's fold leaves in it:
  the launch memory pushed through the first stretch of host operations, the first attention call's write-backs,
  the second stretch of host operations and the second call's write-backs. Nothing is said here about what those
  contents are; that is read off the fold separately.
-/
import proofs.«137487_j84456236908627_1_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: both results at the fold's final contents, the arguments as launched. -/
theorem run : θ_run defs (onTc (τ := τ) (main (F := F))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_v9) = W4 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v4 (by decide)),
       h c _ (mem_uc main_v9 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Cert.KernelIdeal.Named

end
-- ==== Proof.Attend.lean ====
/-
  Masked attention of one query row against a whole key sequence, as one function on the extended reals.

  For a query row `qrow` (length D), keys `k` (L rows of length D), a key mask `km` (length L), a scale `c`
  and the query's own mask value `qmi`:
    score j   = (Σ_d qrow d · k j d) · c · km j
    expo j    = exp (score j − max_j' score j')            (the maximum folded from −∞)
    smax j    = expo j / Σ_j' expo j'  · km j
    weight j  = smax j / (Σ_j' smax j' + ε)
    result d  = (Σ_j weight j · k j d) · qmi.
  Both programs compute this row by row; nothing here depends on a program.
  Also: the two spellings of the scale 1/16 — the word of 0.0625, and 1 divided by the square root of 256 —
  denote the same extended real.
-/
import Idealize.ShloMosaic.PureOps.Ideal
import Idealize.ShloMosaic.Lib.ValueIdx

noncomputable section

namespace Cert.Attend

open Idealize.ShloMosaic

variable {L D : ℕ}

/-- The value of the word of −∞, the starting value of the row maximum. -/
def negInf : EReal := Ideal.ofBits .f32 0xFF800000#32
/-- The value of the word of ε (the float nearest 1e-13); the same word in both programs, never evaluated. -/
def eps : EReal := Ideal.ofBits .f32 0x29E12E13#32

/-- The masked, scaled similarity of the query row with key `j`. -/
def score (c : EReal) (qrow : Fin D → EReal) (k : Fin L → Fin D → EReal) (km : Fin L → EReal) (j : Fin L) : EReal :=
  (∑ d : Fin D, qrow d * k j d) * c * km j

/-- The exponential of a score less the row's maximum. -/
def expo (s : Fin L → EReal) (j : Fin L) : EReal :=
  Ideal.exp (s j - (Finset.univ : Finset (Fin L)).fold max negInf s)

/-- The softmax of the row, masked again. -/
def smax (s km : Fin L → EReal) (j : Fin L) : EReal :=
  Ideal.div (expo s j) (∑ j' : Fin L, expo s j') * km j

/-- The masked softmax renormalised over what the mask kept, ε in the denominator. -/
def weight (s km : Fin L → EReal) (j : Fin L) : EReal :=
  Ideal.div (smax s km j) ((∑ j' : Fin L, smax s km j') + eps)

/-- One row of the attended output: the weighted sum of the keys, times the query's own mask value. -/
def attendRow (c : EReal) (qrow : Fin D → EReal) (qmi : EReal) (k : Fin L → Fin D → EReal) (km : Fin L → EReal)
    (d : Fin D) : EReal :=
  (∑ j : Fin L, weight (score c qrow k km) km j * k j d) * qmi

/-- The scale as one sixteenth. -/
def sixteenth : EReal := ((1 / 16 : ℝ) : EReal)

/-- The attended output at batch `b`, query position `p`, column `d`, from the query array, the query mask
    (kept with a unit middle axis), the key array and the key mask (likewise). -/
def attendAt (c : EReal) (Qa : (⟨3, ![16, 2048, 256]⟩ : Shape).Idx → EReal) (QM : (⟨3, ![16, 1, 2048]⟩ : Shape).Idx → EReal)
    (Ka : (⟨3, ![16, 2048, 256]⟩ : Shape).Idx → EReal) (KM : (⟨3, ![16, 1, 2048]⟩ : Shape).Idx → EReal)
    (b : Fin 16) (p : Fin 2048) (d : Fin 256) : EReal :=
  attendRow c (fun d => Qa (ValueIdx.ix3 b p d)) (QM (ValueIdx.ix3 b (0 : Fin 1) p)) (fun j d => Ka (ValueIdx.ix3 b j d))
    (fun j => KM (ValueIdx.ix3 b (0 : Fin 1) j)) d

/-- The attended output as an array. -/
def attendArr (c : EReal) (Qa : (⟨3, ![16, 2048, 256]⟩ : Shape).Idx → EReal) (QM : (⟨3, ![16, 1, 2048]⟩ : Shape).Idx → EReal)
    (Ka : (⟨3, ![16, 2048, 256]⟩ : Shape).Idx → EReal) (KM : (⟨3, ![16, 1, 2048]⟩ : Shape).Idx → EReal) :
    (⟨3, ![16, 2048, 256]⟩ : Shape).Idx → EReal :=
  fun i => attendAt c Qa QM Ka KM (i 0) (i 1) (i 2)

/-- An integer mask of a batch as extended reals with a unit middle axis: position (b, 0, p) holds the value at (b, p). -/
def maskArr (x : (⟨2, ![16, 2048]⟩ : Shape).Idx → BitVec 32) : (⟨3, ![16, 1, 2048]⟩ : Shape).Idx → EReal :=
  fun i => FloatOps.sitofp (F := Ideal) .f32 (x (ValueIdx.ix2 (i 0) (i 2)))

/-- The same mask as extended reals, position by position. -/
def maskVal (x : (⟨2, ![16, 2048]⟩ : Shape).Idx → BitVec 32) (b : Fin 16) (p : Fin 2048) : EReal :=
  FloatOps.sitofp (F := Ideal) .f32 (x (ValueIdx.ix2 b p))

/-- One direction of the program: queries `q` with integer mask `qm` attend to keys `k` with integer mask `km`,
    the scale one sixteenth; entry (b, p, d). -/
def attendOutAt (q : (⟨3, ![16, 2048, 256]⟩ : Shape).Idx → EReal) (qm : (⟨2, ![16, 2048]⟩ : Shape).Idx → BitVec 32)
    (k : (⟨3, ![16, 2048, 256]⟩ : Shape).Idx → EReal) (km : (⟨2, ![16, 2048]⟩ : Shape).Idx → BitVec 32)
    (b : Fin 16) (p : Fin 2048) (d : Fin 256) : EReal :=
  attendRow sixteenth (fun d => q (ValueIdx.ix3 b p d)) (maskVal qm b p) (fun j d => k (ValueIdx.ix3 b j d)) (maskVal km b) d

/-- That direction as an array. -/
def attendOut (q : (⟨3, ![16, 2048, 256]⟩ : Shape).Idx → EReal) (qm : (⟨2, ![16, 2048]⟩ : Shape).Idx → BitVec 32)
    (k : (⟨3, ![16, 2048, 256]⟩ : Shape).Idx → EReal) (km : (⟨2, ![16, 2048]⟩ : Shape).Idx → BitVec 32) :
    (⟨3, ![16, 2048, 256]⟩ : Shape).Idx → EReal :=
  fun i => attendOutAt q qm k km (i 0) (i 1) (i 2)

/-- With the masks spread on a unit middle axis and the scale one sixteenth, the array form is the program's direction. -/
theorem attendArr_masks (q : (⟨3, ![16, 2048, 256]⟩ : Shape).Idx → EReal) (qm : (⟨2, ![16, 2048]⟩ : Shape).Idx → BitVec 32)
    (k : (⟨3, ![16, 2048, 256]⟩ : Shape).Idx → EReal) (km : (⟨2, ![16, 2048]⟩ : Shape).Idx → BitVec 32) :
    attendArr sixteenth q (maskArr qm) k (maskArr km) = attendOut q qm k km := rfl

/-- The score is symmetric in the order of the two factors under the contraction: a key row times the query row
    summed over d is the query row times the key row. -/
theorem score_comm (c : EReal) (qrow : Fin D → EReal) (k : Fin L → Fin D → EReal) (km : Fin L → EReal) (j : Fin L) :
    (∑ d : Fin D, k j d * qrow d) * c * km j = score c qrow k km j := by
  unfold score
  refine congrArg (fun t => t * c * km j) (Finset.sum_congr rfl fun d _ => mul_comm _ _)

/-- The word of 0.0625 denotes one sixteenth. -/
theorem scale_word : Ideal.ofBits .f32 0x3D800000#32 = sixteenth := by
  unfold sixteenth
  simp [Ideal.ofBits, Ideal.ieee, -EReal.coe_mul]; norm_num

/-- The word of 256.0 denotes the real 256, and the word of 1.0 the real 1. -/
theorem word_256 : Ideal.ofBits .f32 0x43800000#32 = ((256 : ℝ) : EReal) := by
  simp [Ideal.ofBits, Ideal.ieee, -EReal.coe_mul]; norm_num
theorem word_one : Ideal.ofBits .f32 0x3F800000#32 = ((1 : ℝ) : EReal) := by
  simp [Ideal.ofBits, Ideal.ieee, -EReal.coe_mul]; norm_num

/-- One divided by the square root of 256 is one sixteenth: 256 is the square of 16. -/
theorem scale_quotient :
    Ideal.div (Ideal.ofBits .f32 0x3F800000#32) (Ideal.sqrt (Ideal.ofBits .f32 0x43800000#32)) = sixteenth := by
  have h16 : Real.sqrt 256 = 16 := by
    rw [show (256 : ℝ) = 16 ^ 2 by norm_num]
    exact Real.sqrt_sq (by norm_num)
  rw [word_256, word_one, Ideal.sqrt_coe, if_neg (by norm_num), h16]
  unfold Ideal.div sixteenth
  rw [if_neg (by exact_mod_cast (by norm_num : (16 : ℝ) ≠ 0))]
  rw [← EReal.coe_inv, ← EReal.coe_mul]
  congr 1

end Cert.Attend

end
-- ==== Proof.LibAxisFold.lean ====
/-
  The maximum down a column, the maximum along a row and the sum along a row of a matrix, each read at one
  index.

  An [a, b] array of extended reals reduced by `max` along axis 0 (down its rows), from the value a starting
  word denotes, holds at column l the fold of `max` from that value over the entries (k, l), k < a; reduced
  along axis 1 it holds at row p the fold over the entries (p, k), k < b; and reduced by addition along axis 1
  from a zero starting value it holds at row p the finite sum of the entries (p, k). (The sum down a column is
  the companion file's.) Stated with the operation's own proof arguments as variables, so that a printed
  reduction meets each lemma in term mode whatever proofs it carries. Depends on no program.
-/
import Idealize.ShloMosaic.Lib.ValueIdx
import Idealize.ShloMosaic.PureOps.Ideal.Laws

noncomputable section

namespace Cert.AxisFold

open Idealize.ShloMosaic Idealize.ShloMosaic.ValueIdx

/-- The maximum of column `l` of an [a, b] array over its `a` rows, folded from the value of the word `acc`. -/
theorem column_max {a b : ℕ} (v : FVec Ideal ⟨2, ![a, b]⟩ .f32) (acc : BitVec (FTy.f32).bits)
    (h : (⟨2, ![a, b]⟩ : Shape).Reduces [0] ⟨1, ![b]⟩)
    (hφ : FKind.Formats .f32) (hacc : acc = FKind.maximumf.neutral .f32 hφ) (l : Fin b) :
    multiReduction .maximumf [0] ⟨1, ![b]⟩ v acc h hφ hacc (ix1 l)
      = (Finset.univ : Finset (Fin a)).fold max (Ideal.ofBits .f32 acc) fun k => v (ix2 k l) :=
  (Ideal.multiReduction_maximumf_single v acc h hφ hacc (ix1 l)).trans
    (congrArg (fun f => Finset.fold max (Ideal.ofBits .f32 acc) f (Finset.univ : Finset (Fin a)))
      (funext fun k => congrArg v (funext fun c => Fin.ext (by
        match c with
        | ⟨0, _⟩ => rfl
        | ⟨1, _⟩ => rfl))))

/-- The maximum of row `p` of an [a, b] array over its `b` columns, folded from the value of the word `acc`. -/
theorem row_max {a b : ℕ} (v : FVec Ideal ⟨2, ![a, b]⟩ .f32) (acc : BitVec (FTy.f32).bits)
    (h : (⟨2, ![a, b]⟩ : Shape).Reduces [1] ⟨1, ![a]⟩)
    (hφ : FKind.Formats .f32) (hacc : acc = FKind.maximumf.neutral .f32 hφ) (p : Fin a) :
    multiReduction .maximumf [1] ⟨1, ![a]⟩ v acc h hφ hacc (ix1 p)
      = (Finset.univ : Finset (Fin b)).fold max (Ideal.ofBits .f32 acc) fun k => v (ix2 p k) :=
  (Ideal.multiReduction_maximumf_single v acc h hφ hacc (ix1 p)).trans
    (congrArg (fun f => Finset.fold max (Ideal.ofBits .f32 acc) f (Finset.univ : Finset (Fin b)))
      (funext fun k => congrArg v (funext fun c => Fin.ext (by
        match c with
        | ⟨0, _⟩ => rfl
        | ⟨1, _⟩ => rfl))))

/-- The sum of row `p` of an [a, b] array over its `b` columns, from a zero initial value. -/
theorem row_sum {a b : ℕ} (v : FVec Ideal ⟨2, ![a, b]⟩ .f32) (h : (⟨2, ![a, b]⟩ : Shape).Reduces [1] ⟨1, ![a]⟩)
    (hφ : FKind.Formats .f32) (hacc : (0x00000000#32 : BitVec (FTy.f32).bits) = FKind.add.neutral .f32 hφ) (p : Fin a) :
    multiReduction .add [1] ⟨1, ![a]⟩ v 0x00000000#32 h hφ hacc (ix1 p) = ∑ k : Fin b, v (ix2 p k) :=
  (Ideal.multiReduction_add_single v 0x00000000#32 h hφ hacc (ix1 p)).trans
    (Finset.sum_congr rfl fun k _ => congrArg v (funext fun c => Fin.ext (by
      match c with
      | ⟨0, _⟩ => rfl
      | ⟨1, _⟩ => rfl)))

end Cert.AxisFold

end
-- ==== Proof.LibLayout.lean ====
/-
  Small layout facts read at an index, for two-dimensional arrays with a unit axis: a vector turned into a
  column, a column broadcast across columns. (The row forms and the plain transpose are in the library.)
-/
import Idealize.ShloMosaic.Lib.ValueIdx
import Idealize.ShloMosaic.Lib.ValueLayout
import Idealize.ShloMosaic.Lib.Pipeline.Value

namespace Cert.LibLayout

open Idealize.ShloMosaic Idealize.ShloMosaic.ValueIdx

variable {α : Type}

/-- An `[a]` array cast to the column shape `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-element `[1]` array cast to `[1, 1]` reads the operand's one element. -/
theorem shapeCast_1_11_apply (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) :=
  shapeCast_apply x h _ _ (by
    have hu : u.val = 0 := by omega
    have hv : v.val = 0 := by omega
    rw [Shape.rowMajor_val_two, Shape.rowMajor_val_one]
    show (0 : ℕ) = u.val * 1 + v.val
    rw [hu, hv])

/-- A rank-3 index set is the product of its three coordinate ranges … -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {M : Type*} [AddCommMonoid M] {n0 n1 n2 : ℕ} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibLayout
-- ==== Proof.LibPlainDot.lean ====
/-
  The matrix product of an [M, K] array and a [K, N] array, read at one entry.

  Whatever record carries the dimension numbers of a plain product (contract the left operand's columns with the right
  operand's rows, no batch axis), entry (p, q) of a kernel's product into a zero accumulator, and of a host program's
  product, is the sum over k of left (p, k) times right (k, q): it depends on the left operand through row p alone.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The dimension numbers of a plain M×K by K×N product. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

/-- The contraction's sum, re-indexed by the one contracted coordinate. -/
theorem contr_sum (d : DotDims ⟨2, ![M, K]⟩ ⟨2, ![K, N]⟩ ⟨2, ![M, N]⟩) (hd : IsPlain d)
    (lhs : (⟨2, ![M, K]⟩ : Shape).Idx → EReal) (rhs : (⟨2, ![K, N]⟩ : Shape).Idx → EReal) (p : Fin M) (q : Fin N) :
    ∑ k : d.contr.Idx, lhs (d.lhsIdx (ix2 p q) k) * rhs (d.rhsIdx (ix2 p q) k) = ∑ k : Fin K, lhs (ix2 p k) * rhs (ix2 k q) := by
  obtain ⟨lc, rc, ln, rn, lb, rb, wf⟩ := d
  obtain ⟨h1, h2, h3, h4, h5, h6⟩ := hd
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = d
  have hlc : d.lhsContracting = [1] := by rw [← hD]
  have hrc : d.rhsContracting = [0] := by rw [← hD]
  have hr : d.contr.rank = 1 := by rw [← hD]; rfl
  have hs : d.contr.size ⟨0, by omega⟩ = K := by subst hD; rfl
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ =>
      subst hD
      unfold DotDims.lhsIdx
      dsimp only
      repeat' split
      all_goals first | rfl | (exfalso; simp_all)
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ =>
      subst hD
      unfold DotDims.rhsIdx
      dsimp only
      repeat' split
      all_goals first | rfl | (exfalso; simp_all))
  rw [el, er]

/-- A kernel's product into a zero accumulator at entry (p, q). -/
theorem matmul_apply {φ₁ φ₂ : FTy} (d : DotDims ⟨2, ![M, K]⟩ ⟨2, ![K, N]⟩ ⟨2, ![M, N]⟩) (hd : IsPlain d)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  show FloatOps.matmul d prec lhs rhs (constant ⟨2, ![M, N]⟩ .f32 0x00000000#32) (ix2 p q) = _
  rw [Ideal.matmul_constant_zero_apply]
  exact contr_sum d hd lhs rhs p q

/-- A host program's product at entry (p, q). -/
theorem dotGeneral_apply {φ₁ φ₂ : FTy} (d : DotDims ⟨2, ![M, K]⟩ ⟨2, ![K, N]⟩ ⟨2, ![M, N]⟩) (hd : IsPlain d)
    (prec : Option ContractPrecision) (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) := by
  show FloatOps.dotGeneral d prec _ lhs rhs (ix2 p q) = _
  rw [Ideal.dotGeneral_apply]
  exact contr_sum d hd lhs rhs p q

end Cert.PlainDot

end
-- ==== Proof.LibUnitCasts.lean ====
/-
  A vector kept with two leading unit axes, read back as a vector.

  A `[1, 1, a]` array cast to `[a]` holds, at `i`, the operand's entry `(0, 0, i)`: the two arrays have the same
  row-major order. (The casts that drop or add ONE leading unit axis are in the library.) Depends on no program.
-/
import Idealize.ShloMosaic.Lib.ValueIdx
import Idealize.ShloMosaic.Lib.Pipeline.Value

namespace Cert.LibUnitCasts

open Idealize.ShloMosaic Idealize.ShloMosaic.ValueIdx

/-- A `[1, 1, a]` array cast to `[a]` reads, at `i`, the operand at `(0, 0, i)`. -/
theorem shapeCast_11a_a_apply {α : Type} {a : ℕ} (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

end Cert.LibUnitCasts
-- ==== Proof.KernelBody.lean ====
/-
  What one grid point of either attention kernel writes, read at an index.

  The body loads a block of 512 query rows, their 512 mask values, the whole 2048-row key array of the batch and
  its 2048 mask values, and stores a 512 x 256 block. Row r, column d of that block is `Attend.attendRow` of
  query row r: the body's operations are, in order, exactly the stages of that function — the similarity by a
  matrix product with the transposed keys, the scale, the key mask, the row maximum, the exponential, the two
  normalisations, the product with the keys, the query mask — and changes of float format are the identity.
  The body is cut into three stages of its own (`scoreV`, the softmax stages, the last product) so that each is
  read at an index over a small term.
-/
import proofs.«137487_j84456236908627_1_alg».proof.Proof.Gen.KernelIdeal.Skeleton
import proofs.«137487_j84456236908627_1_alg».proof.Proof.Attend
import proofs.«137487_j84456236908627_1_alg».proof.Proof.LibAxisFold
import proofs.«137487_j84456236908627_1_alg».proof.Proof.LibLayout
import proofs.«137487_j84456236908627_1_alg».proof.Proof.LibPlainDot
import proofs.«137487_j84456236908627_1_alg».proof.Proof.LibUnitCasts
import Idealize.ShloMosaic.Lib.ValueLayout
import Idealize.ShloMosaic.Lib.Pipeline.Value

noncomputable section

namespace Cert.KernelIdeal.Body

open Idealize.ShloMosaic Idealize.ShloMosaic.ValueIdx Cert.KernelIdeal Cert.KernelIdeal.Facts₀ Cert.Attend Cert.LibUnitCasts

/-! ## The stages, as array operations -/

/-- The key mask as a 512 x 2048 array: every row the mask. -/
def maskRows (km : FVec Ideal S2048 .f32) : FVec Ideal S512x2048 .f32 :=
  broadcastTo S512x2048 (shapeCast S1x2048 km shapeCasts_S2048_S1x2048) broadcasts_S1x2048_S512x2048

/-- A length-512 vector as a 512 x 2048 array: every column the vector. -/
def colsOf (v : FVec Ideal S512 .f32) : FVec Ideal S512x2048 .f32 :=
  broadcastTo S512x2048 (shapeCast S512x1 v shapeCasts_S512_S512x1) broadcasts_S512x1_S512x2048

/-- The masked, scaled similarities of the 512 query rows with the 2048 keys. -/
def scoreV (q : FVec Ideal S512x256 .f32) (k : FVec Ideal S2048x256 .f32) (km : FVec Ideal S2048 .f32) : FVec Ideal S512x2048 .f32 :=
  mulf (mulf (matmul dot_S512x256_S256x2048_S512x2048_1_0_0_1_n_n none (truncf .bf16 q bitsLt_bf16_f32)
        (transpose S256x2048 [1, 0] (truncf .bf16 k bitsLt_bf16_f32) transposes_S2048x256_p1_0_S256x2048)
        (constant S512x2048 .f32 0x00000000#32))
      (broadcast S512x2048 (Scalar.ofBits .f32 0x3D800000#32)))
    (maskRows km)

/-- The exponentials of the scores less each row's maximum. -/
def expV (s : FVec Ideal S512x2048 .f32) : FVec Ideal S512x2048 .f32 :=
  exp (subf s (colsOf (multiReduction .maximumf [1] S512 s 0xFF800000#32 reduces_S512x2048_S512 (.inl rfl) rfl)))

/-- The softmax of each row, masked. -/
def smaxV (s : FVec Ideal S512x2048 .f32) (km : FVec Ideal S2048 .f32) : FVec Ideal S512x2048 .f32 :=
  mulf (divf (expV s) (colsOf (multiReduction .add [1] S512 (expV s) 0x00000000#32 reduces_S512x2048_S512 (.inl rfl) rfl)))
    (maskRows km)

/-- The masked softmax renormalised, ε in the denominator. -/
def weightV (s : FVec Ideal S512x2048 .f32) (km : FVec Ideal S2048 .f32) : FVec Ideal S512x2048 .f32 :=
  divf (smaxV s km)
    (broadcastTo S512x2048
      (addf (shapeCast S512x1 (multiReduction .add [1] S512 (smaxV s km) 0x00000000#32 reduces_S512x2048_S512 (.inl rfl) rfl) shapeCasts_S512_S512x1)
        (broadcast S512x1 (Scalar.ofBits .f32 0x29E12E13#32)))
      broadcasts_S512x1_S512x2048)

/-- The body's product payload is the last product over these stages. -/
theorem pay2_eq (x0 : Vec Ideal S1x512x256 .f32) (x2 : Vec Ideal S1x2048x256 .f32) (x3 : Vec Ideal S1x1x2048 .f32) :
    Gen.k0_pay2 x0 x2 x3
      = matmul dot_S512x2048_S2048x256_S512x256_1_0_0_1_n_n none
          (truncf .bf16 (weightV (scoreV (shapeCast S512x256 x0 shapeCasts_S1x512x256_S512x256)
              (shapeCast S2048x256 x2 shapeCasts_S1x2048x256_S2048x256) (shapeCast S2048 x3 shapeCasts_S1x1x2048_S2048))
            (shapeCast S2048 x3 shapeCasts_S1x1x2048_S2048)) bitsLt_bf16_f32)
          (truncf .bf16 (shapeCast S2048x256 x2 shapeCasts_S1x2048x256_S2048x256) bitsLt_bf16_f32)
          (constant S512x256 .f32 0x00000000#32) := rfl

/-! ## The stages at an index -/

theorem maskRows_apply (km : FVec Ideal S2048 .f32) (r : Fin 512) (j : Fin 2048) : maskRows km (ix2 r j) = km (ix1 j) := by
  unfold maskRows
  rw [broadcastTo_1b_ab_apply, shapeCast_a_1a_apply]

theorem colsOf_apply (v : FVec Ideal S512 .f32) (r : Fin 512) (j : Fin 2048) : colsOf v (ix2 r j) = v (ix1 r) := by
  unfold colsOf
  rw [Cert.LibLayout.broadcastTo_a1_ab_apply, Cert.LibLayout.shapeCast_a_a1_apply]

/-- Entry (r, j) of the similarities: the score of query row r with key j. -/
theorem scoreV_apply (q : FVec Ideal S512x256 .f32) (k : FVec Ideal S2048x256 .f32) (km : FVec Ideal S2048 .f32)
    (r : Fin 512) (j : Fin 2048) :
    scoreV q k km (ix2 r j)
      = score (Ideal.ofBits .f32 0x3D800000#32) (fun d => q (ix2 r d)) (fun j d => k (ix2 j d)) (fun j => km (ix1 j)) j := by
  unfold scoreV score
  rw [mulf_apply, mulf_apply, maskRows_apply, broadcast_apply,
    Cert.PlainDot.matmul_apply _ ⟨rfl, rfl, rfl, rfl, rfl, rfl⟩]
  have hs : (∑ d : Fin 256, truncf .bf16 q bitsLt_bf16_f32 (ix2 r d)
        * transpose S256x2048 [1, 0] (truncf .bf16 k bitsLt_bf16_f32) transposes_S2048x256_p1_0_S256x2048 (ix2 d j))
      = ∑ d : Fin 256, q (ix2 r d) * k (ix2 j d) :=
    Finset.sum_congr rfl fun d _ => by rw [transpose_ix2_apply]; rfl
  rw [hs]
  rfl

/-- Entry (r, j) of the exponentials. -/
theorem expV_apply (s : FVec Ideal S512x2048 .f32) (r : Fin 512) (j : Fin 2048) :
    expV s (ix2 r j) = expo (fun j => s (ix2 r j)) j := by
  unfold expV expo negInf
  show Ideal.exp (s (ix2 r j) - colsOf _ (ix2 r j)) = _
  rw [colsOf_apply]
  exact congrArg (fun t => Ideal.exp (s (ix2 r j) - t)) (Cert.AxisFold.row_max s _ _ _ _ r)

/-- Entry (r, j) of the masked softmax. -/
theorem smaxV_apply (s : FVec Ideal S512x2048 .f32) (km : FVec Ideal S2048 .f32) (r : Fin 512) (j : Fin 2048) :
    smaxV s km (ix2 r j) = smax (fun j => s (ix2 r j)) (fun j => km (ix1 j)) j := by
  unfold smaxV smax
  rw [mulf_apply, divf_apply, maskRows_apply, colsOf_apply, expV_apply]
  exact congrArg (fun t => Ideal.div (expo (fun j => s (ix2 r j)) j) t * km (ix1 j))
    ((Cert.AxisFold.row_sum (expV s) _ _ _ r).trans (Finset.sum_congr rfl fun k _ => expV_apply s r k))

/-- Entry (r, j) of the renormalised weights. -/
theorem weightV_apply (s : FVec Ideal S512x2048 .f32) (km : FVec Ideal S2048 .f32) (r : Fin 512) (j : Fin 2048) :
    weightV s km (ix2 r j) = weight (fun j => s (ix2 r j)) (fun j => km (ix1 j)) j := by
  unfold weightV weight eps
  rw [divf_apply, Cert.LibLayout.broadcastTo_a1_ab_apply, addf_apply, Cert.LibLayout.shapeCast_a_a1_apply,
    broadcast_apply, smaxV_apply]
  exact congrArg (fun t => Ideal.div (smax (fun j => s (ix2 r j)) (fun j => km (ix1 j)) j) (t + Ideal.ofBits .f32 0x29E12E13#32))
    ((Cert.AxisFold.row_sum (smaxV s km) _ _ _ r).trans (Finset.sum_congr rfl fun k _ => smaxV_apply s km r k))

/-- The query mask spread over the 256 columns. -/
theorem pay3_apply (x1 : Vec Ideal S1x1x512 .f32) (r : Fin 512) (d : Fin 256) :
    Gen.k0_pay3 x1 (ix2 r d) = x1 (ix3 (0 : Fin 1) (0 : Fin 1) r) := by
  dsimp only [Gen.k0_pay3]
  rw [Cert.LibLayout.broadcastTo_a1_ab_apply, Cert.LibLayout.shapeCast_a_a1_apply, shapeCast_11a_a_apply]

/-! ## The stored block -/

/-- Row r, column d of the block the body stores is the attended row of query row r. -/
theorem block_apply (x0 : Vec Ideal S1x512x256 .f32) (x1 : Vec Ideal S1x1x512 .f32) (x2 : Vec Ideal S1x2048x256 .f32)
    (x3 : Vec Ideal S1x1x2048 .f32) (u : Fin 1) (r : Fin 512) (d : Fin 256) :
    Gen.k0_pay1 (Gen.k0_pay2 x0 x2 x3) (Gen.k0_pay3 x1) (ix3 u r d)
      = attendRow (Ideal.ofBits .f32 0x3D800000#32) (fun d => x0 (ix3 (0 : Fin 1) r d)) (x1 (ix3 (0 : Fin 1) (0 : Fin 1) r))
          (fun j d => x2 (ix3 (0 : Fin 1) j d)) (fun j => x3 (ix3 (0 : Fin 1) (0 : Fin 1) j)) d := by
  dsimp only [Gen.k0_pay1]
  rw [shapeCast_ab_1ab_apply, mulf_apply, pay3_apply, pay2_eq, Cert.PlainDot.matmul_apply _ ⟨rfl, rfl, rfl, rfl, rfl, rfl⟩]
  unfold attendRow
  have hkm : (fun j : Fin 2048 => shapeCast S2048 x3 shapeCasts_S1x1x2048_S2048 (ix1 j))
      = fun j => x3 (ix3 (0 : Fin 1) (0 : Fin 1) j) := funext fun j => shapeCast_11a_a_apply x3 _ j
  have hs : (fun j : Fin 2048 => scoreV (shapeCast S512x256 x0 shapeCasts_S1x512x256_S512x256)
        (shapeCast S2048x256 x2 shapeCasts_S1x2048x256_S2048x256) (shapeCast S2048 x3 shapeCasts_S1x1x2048_S2048) (ix2 r j))
      = score (Ideal.ofBits .f32 0x3D800000#32) (fun d => x0 (ix3 (0 : Fin 1) r d)) (fun j d => x2 (ix3 (0 : Fin 1) j d))
          (fun j => x3 (ix3 (0 : Fin 1) (0 : Fin 1) j)) := funext fun j => by
    rw [scoreV_apply]
    simp only [shapeCast_1ab_ab_apply, shapeCast_11a_a_apply]
  refine congrArg (fun t => t * x1 (ix3 (0 : Fin 1) (0 : Fin 1) r)) (Finset.sum_congr rfl fun j _ => ?_)
  rw [truncf_apply, truncf_apply, weightV_apply, shapeCast_1ab_ab_apply, hs, hkm]

end Cert.KernelIdeal.Body

end
-- ==== Proof.KernelBlocks.lean ====
/-
  From the blocks to the arrays: what each of the two attention calls leaves in its output array.

  A call runs the body once per (batch, query tile). At that point the query block is rows 512·tile … 512·tile + 511
  of the batch's query array, its mask the same positions of the query mask, the keys and the key mask the batch's whole
  arrays; the body writes the attended rows of exactly those query rows. The 16 x 4 output blocks tile the output array,
  so the array ends as the attended array of the four arrays the call was entered with, whatever those are.
-/
import proofs.«137487_j84456236908627_1_alg».proof.Proof.Gen.KernelIdeal.Frame
import proofs.«137487_j84456236908627_1_alg».proof.Proof.KernelBody
import Idealize.ShloMosaic.Lib.Pipeline.Value

set_option maxRecDepth 16384

noncomputable section

namespace Cert.KernelIdeal.Blocks

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Attend

variable (V : (c : Dev nD) → (b : Ref sig .tc) → Buf (Elt Ideal) ((c : Thread nD τ).loc b))

theorem hz3 : (![0, 0, 0] : Fin 3 → Nat) = fun _ => 0 := funext fun a => by fin_cases a <;> rfl

/-- The attended row depends on its five arguments only. -/
theorem attendRow_congr {L D : ℕ} {c : EReal} {q q' : Fin D → EReal} {w w' : EReal} {k k' : Fin L → Fin D → EReal}
    {km km' : Fin L → EReal} {d d' : Fin D} (hq : q = q') (hw : w = w') (hk : k = k') (hkm : km = km') (hd : d = d') :
    attendRow c q w k km d = attendRow c q' w' k' km' d' := by
  subst hq hw hk hkm hd; rfl

namespace Region0

/-- How the five windows' block indices are related at every grid point: the query block and its mask move with the
    output block (batch, query tile); the keys and their mask are the batch's whole arrays. -/
theorem idx_facts : ∀ t : Fin cfg0.N,
    win0_0.index t (0 : Fin 3) = win0_4.index t (0 : Fin 3) ∧ win0_0.index t (1 : Fin 3) = win0_4.index t (1 : Fin 3) ∧ win0_0.index t (2 : Fin 3) = 0
    ∧ win0_1.index t (0 : Fin 3) = win0_4.index t (0 : Fin 3) ∧ win0_1.index t (1 : Fin 3) = 0 ∧ win0_1.index t (2 : Fin 3) = win0_4.index t (1 : Fin 3)
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = 0 ∧ win0_3.index t (2 : Fin 3) = 0
    ∧ win0_4.index t (0 : Fin 3) ≤ 15 ∧ win0_4.index t (1 : Fin 3) ≤ 3 ∧ win0_4.index t (2 : Fin 3) = 0 :=
  (by decide +kernel : ∀ t : Fin grid0.N, _)

/-- Every (batch, query tile) pair is some grid point's output block. -/
theorem idx_onto : ∀ (q0 : Fin 16) (q1 : Fin 4), ∃ t : Fin cfg0.N, win0_4.index t = ![q0.val, q1.val, 0] :=
  (by decide +kernel : ∀ (q0 : Fin 16) (q1 : Fin 4), ∃ t : Fin grid0.N, win0_4.index t = ![q0.val, q1.val, 0])

/-- What grid point `t` writes back is block `t` of the attended array of the arrays the call finds. -/
theorem flushed_eq (c : Dev nD) (t : Fin cfg0.N) :
    (dat0 V c).flushed 4 t = ((cfg0.win 4).blk t).view.read (Elt Ideal)
      (attendArr (Ideal.ofBits .f32 0x3D800000#32) (V c main_arg0) (V c main_v1) (V c main_arg2) (V c main_v3)) := by
  show (cfg0.win 4).cut (grid0.coords t) ((dat0 V c).after 4 t) = _
  rw [after0_4]
  unfold out0_4
  rw [View.canon_unit_zero hz3]
  simp only [View.ld_unit_zero (S := S1x512x256) hz3, View.ld_unit_zero (S := S1x2048x256) hz3,
    View.ld_unit_zero (S := S1x1x2048) hz3, View.ld_unit_zero (S := S1x1x512) hz3]
  obtain ⟨e00, e01, e02, e10, e11, e12, e20, e21, e22, e30, e31, e32, b0, b1, e42⟩ := idx_facts t
  funext y
  obtain ⟨u, r, d, rfl⟩ : ∃ (u : Fin 1) (r : Fin 512) (d : Fin 256), y = ix3 u r d := ⟨y 0, y 1, y 2, eq_ix3 y⟩
  refine (Cert.KernelIdeal.Body.block_apply (iblk0 V c 0 t) (iblk0 V c 1 t) (iblk0 V c 2 t) (iblk0 V c 3 t) u r d).trans ?_
  have hu : u.val = 0 := by omega
  show _ = attendAt (Ideal.ofBits .f32 0x3D800000#32) (V c main_arg0) (V c main_v1) (V c main_arg2) (V c main_v3)
    ((((cfg0.win 4).blk t).view.emb (ix3 u r d)) 0) ((((cfg0.win 4).blk t).view.emb (ix3 u r d)) 1) ((((cfg0.win 4).blk t).view.emb (ix3 u r d)) 2)
  unfold attendAt
  refine attendRow_congr (funext fun d' => ?_) ?_ (funext fun j => funext fun d' => ?_) (funext fun j => ?_) (Fin.ext ?_)
  · show V c main_arg0 (((cfg0.win 0).blk t).view.emb (ix3 0 r d')) = _
    refine congrArg (V c main_arg0) (funext fun a => Fin.ext ?_)
    match a with
    | ⟨0, _⟩ => show win0_0.index t (0 : Fin 3) * 1 + 1 * 0 = win0_4.index t (0 : Fin 3) * 1 + 1 * u.val; omega
    | ⟨1, _⟩ => show win0_0.index t (1 : Fin 3) * 512 + 1 * r.val = win0_4.index t (1 : Fin 3) * 512 + 1 * r.val; omega
    | ⟨2, _⟩ => show win0_0.index t (2 : Fin 3) * 256 + 1 * d'.val = d'.val; omega
  · show V c main_v1 (((cfg0.win 1).blk t).view.emb (ix3 0 0 r)) = _
    refine congrArg (V c main_v1) (funext fun a => Fin.ext ?_)
    match a with
    | ⟨0, _⟩ => show win0_1.index t (0 : Fin 3) * 1 + 1 * 0 = win0_4.index t (0 : Fin 3) * 1 + 1 * u.val; omega
    | ⟨1, _⟩ => show win0_1.index t (1 : Fin 3) * 1 + 1 * 0 = 0; omega
    | ⟨2, _⟩ => show win0_1.index t (2 : Fin 3) * 512 + 1 * r.val = win0_4.index t (1 : Fin 3) * 512 + 1 * r.val; omega
  · show V c main_arg2 (((cfg0.win 2).blk t).view.emb (ix3 0 j d')) = _
    refine congrArg (V c main_arg2) (funext fun a => Fin.ext ?_)
    match a with
    | ⟨0, _⟩ => show win0_2.index t (0 : Fin 3) * 1 + 1 * 0 = win0_4.index t (0 : Fin 3) * 1 + 1 * u.val; omega
    | ⟨1, _⟩ => show win0_2.index t (1 : Fin 3) * 2048 + 1 * j.val = j.val; omega
    | ⟨2, _⟩ => show win0_2.index t (2 : Fin 3) * 256 + 1 * d'.val = d'.val; omega
  · show V c main_v3 (((cfg0.win 3).blk t).view.emb (ix3 0 0 j)) = _
    refine congrArg (V c main_v3) (funext fun a => Fin.ext ?_)
    match a with
    | ⟨0, _⟩ => show win0_3.index t (0 : Fin 3) * 1 + 1 * 0 = win0_4.index t (0 : Fin 3) * 1 + 1 * u.val; omega
    | ⟨1, _⟩ => show win0_3.index t (1 : Fin 3) * 1 + 1 * 0 = 0; omega
    | ⟨2, _⟩ => show win0_3.index t (2 : Fin 3) * 2048 + 1 * j.val = j.val; omega
  · show d.val = win0_4.index t (2 : Fin 3) * 256 + 1 * d.val; omega

/-- An index of the output array is in point `t`'s block iff each coordinate is in the block's range on its axis. -/
theorem mem_blk (t : Fin cfg0.N) (i : S16x2048x256.Idx) :
    i ∈ ((cfg0.win 4).blk t).view.set ↔ ∀ a : Fin 3, win0_4.index t a * S1x512x256.size a ≤ (i a).val ∧ (i a).val < win0_4.index t a * S1x512x256.size a + S1x512x256.size a := by
  show i ∈ ((View.whole main_v4).slice (win0_4.rect t)).set ↔ _
  rw [View.set_slice_whole, Rect.mem_set_unit]
  exact Iff.rfl

/-- Every index of the output array lies in some grid point's block: row p of batch b in the block of (b, p / 512). -/
theorem cover (i : S16x2048x256.Idx) :
    ∃ t : Fin cfg0.N, (cfg0.win 4).flush t = true ∧ i ∈ ((cfg0.win 4).blk t).view.set := by
  have hi0 : (i 0).val < 16 := (i 0).isLt
  have hi1 : (i 1).val < 2048 := (i 1).isLt
  have hi2 : (i 2).val < 256 := (i 2).isLt
  obtain ⟨t, ht⟩ := idx_onto ⟨(i 0).val, hi0⟩ ⟨(i 1).val / 512, by omega⟩
  have q0 : win0_4.index t (0 : Fin 3) = (i 0).val := congrFun ht 0
  have q1 : win0_4.index t (1 : Fin 3) = (i 1).val / 512 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 512 ≤ (i 1).val ∧ (i 1).val < win0_4.index t (1 : Fin 3) * 512 + 512; omega
  | ⟨2, _⟩ => show win0_4.index t (2 : Fin 3) * 256 ≤ (i 2).val ∧ (i 2).val < win0_4.index t (2 : Fin 3) * 256 + 256; omega

/-- The output array after the call: the attended array of the arrays the call finds. -/
theorem final (c : Dev nD) :
    (dat0 V c).arrAt 4 cfg0.N
      = attendArr (Ideal.ofBits .f32 0x3D800000#32) (V c main_arg0) (V c main_v1) (V c main_arg2) (V c main_v3) :=
  (dat0 V c).arrAt_eq_of_cover 4 _ (fun t _ => flushed_eq V c t) cover

end Region0

namespace Region1

/-- The second call's body is the first call's: the same operations on its own operands. -/
theorem pay_same (x0 : Vec Ideal S1x512x256 .f32) (x1 : Vec Ideal S1x1x512 .f32) (x2 : Vec Ideal S1x2048x256 .f32) (x3 : Vec Ideal S1x1x2048 .f32) :
    k1_pay1 (k1_pay2 x0 x2 x3) (k1_pay3 x1) = k0_pay1 (k0_pay2 x0 x2 x3) (k0_pay3 x1) := rfl

/-- How the five windows' block indices are related at every grid point: the query block and its mask move with the
    output block (batch, query tile); the keys and their mask are the batch's whole arrays. -/
theorem idx_facts : ∀ t : Fin cfg1.N,
    win1_0.index t (0 : Fin 3) = win1_4.index t (0 : Fin 3) ∧ win1_0.index t (1 : Fin 3) = win1_4.index t (1 : Fin 3) ∧ win1_0.index t (2 : Fin 3) = 0
    ∧ win1_1.index t (0 : Fin 3) = win1_4.index t (0 : Fin 3) ∧ win1_1.index t (1 : Fin 3) = 0 ∧ win1_1.index t (2 : Fin 3) = win1_4.index t (1 : Fin 3)
    ∧ win1_2.index t (0 : Fin 3) = win1_4.index t (0 : Fin 3) ∧ win1_2.index t (1 : Fin 3) = 0 ∧ win1_2.index t (2 : Fin 3) = 0
    ∧ win1_3.index t (0 : Fin 3) = win1_4.index t (0 : Fin 3) ∧ win1_3.index t (1 : Fin 3) = 0 ∧ win1_3.index t (2 : Fin 3) = 0
    ∧ win1_4.index t (0 : Fin 3) ≤ 15 ∧ win1_4.index t (1 : Fin 3) ≤ 3 ∧ win1_4.index t (2 : Fin 3) = 0 :=
  (by decide +kernel : ∀ t : Fin grid1.N, _)

/-- Every (batch, query tile) pair is some grid point's output block. -/
theorem idx_onto : ∀ (q0 : Fin 16) (q1 : Fin 4), ∃ t : Fin cfg1.N, win1_4.index t = ![q0.val, q1.val, 0] :=
  (by decide +kernel : ∀ (q0 : Fin 16) (q1 : Fin 4), ∃ t : Fin grid1.N, win1_4.index t = ![q0.val, q1.val, 0])

/-- What grid point `t` writes back is block `t` of the attended array of the arrays the call finds. -/
theorem flushed_eq (c : Dev nD) (t : Fin cfg1.N) :
    (dat1 V c).flushed 4 t = ((cfg1.win 4).blk t).view.read (Elt Ideal)
      (attendArr (Ideal.ofBits .f32 0x3D800000#32) (V c main_arg2) (V c main_v6) (V c main_arg0) (V c main_v8)) := by
  show (cfg1.win 4).cut (grid1.coords t) ((dat1 V c).after 4 t) = _
  rw [after1_4]
  unfold out1_4
  rw [View.canon_unit_zero hz3]
  simp only [View.ld_unit_zero (S := S1x512x256) hz3, View.ld_unit_zero (S := S1x2048x256) hz3,
    View.ld_unit_zero (S := S1x1x2048) hz3, View.ld_unit_zero (S := S1x1x512) hz3]
  obtain ⟨e00, e01, e02, e10, e11, e12, e20, e21, e22, e30, e31, e32, b0, b1, e42⟩ := idx_facts t
  funext y
  obtain ⟨u, r, d, rfl⟩ : ∃ (u : Fin 1) (r : Fin 512) (d : Fin 256), y = ix3 u r d := ⟨y 0, y 1, y 2, eq_ix3 y⟩
  refine ((congrFun (pay_same (iblk1 V c 0 t) (iblk1 V c 1 t) (iblk1 V c 2 t) (iblk1 V c 3 t)) (ix3 u r d)).trans
    (Cert.KernelIdeal.Body.block_apply (iblk1 V c 0 t) (iblk1 V c 1 t) (iblk1 V c 2 t) (iblk1 V c 3 t) u r d)).trans ?_
  have hu : u.val = 0 := by omega
  show _ = attendAt (Ideal.ofBits .f32 0x3D800000#32) (V c main_arg2) (V c main_v6) (V c main_arg0) (V c main_v8)
    ((((cfg1.win 4).blk t).view.emb (ix3 u r d)) 0) ((((cfg1.win 4).blk t).view.emb (ix3 u r d)) 1) ((((cfg1.win 4).blk t).view.emb (ix3 u r d)) 2)
  unfold attendAt
  refine attendRow_congr (funext fun d' => ?_) ?_ (funext fun j => funext fun d' => ?_) (funext fun j => ?_) (Fin.ext ?_)
  · show V c main_arg2 (((cfg1.win 0).blk t).view.emb (ix3 0 r d')) = _
    refine congrArg (V c main_arg2) (funext fun a => Fin.ext ?_)
    match a with
    | ⟨0, _⟩ => show win1_0.index t (0 : Fin 3) * 1 + 1 * 0 = win1_4.index t (0 : Fin 3) * 1 + 1 * u.val; omega
    | ⟨1, _⟩ => show win1_0.index t (1 : Fin 3) * 512 + 1 * r.val = win1_4.index t (1 : Fin 3) * 512 + 1 * r.val; omega
    | ⟨2, _⟩ => show win1_0.index t (2 : Fin 3) * 256 + 1 * d'.val = d'.val; omega
  · show V c main_v6 (((cfg1.win 1).blk t).view.emb (ix3 0 0 r)) = _
    refine congrArg (V c main_v6) (funext fun a => Fin.ext ?_)
    match a with
    | ⟨0, _⟩ => show win1_1.index t (0 : Fin 3) * 1 + 1 * 0 = win1_4.index t (0 : Fin 3) * 1 + 1 * u.val; omega
    | ⟨1, _⟩ => show win1_1.index t (1 : Fin 3) * 1 + 1 * 0 = 0; omega
    | ⟨2, _⟩ => show win1_1.index t (2 : Fin 3) * 512 + 1 * r.val = win1_4.index t (1 : Fin 3) * 512 + 1 * r.val; omega
  · show V c main_arg0 (((cfg1.win 2).blk t).view.emb (ix3 0 j d')) = _
    refine congrArg (V c main_arg0) (funext fun a => Fin.ext ?_)
    match a with
    | ⟨0, _⟩ => show win1_2.index t (0 : Fin 3) * 1 + 1 * 0 = win1_4.index t (0 : Fin 3) * 1 + 1 * u.val; omega
    | ⟨1, _⟩ => show win1_2.index t (1 : Fin 3) * 2048 + 1 * j.val = j.val; omega
    | ⟨2, _⟩ => show win1_2.index t (2 : Fin 3) * 256 + 1 * d'.val = d'.val; omega
  · show V c main_v8 (((cfg1.win 3).blk t).view.emb (ix3 0 0 j)) = _
    refine congrArg (V c main_v8) (funext fun a => Fin.ext ?_)
    match a with
    | ⟨0, _⟩ => show win1_3.index t (0 : Fin 3) * 1 + 1 * 0 = win1_4.index t (0 : Fin 3) * 1 + 1 * u.val; omega
    | ⟨1, _⟩ => show win1_3.index t (1 : Fin 3) * 1 + 1 * 0 = 0; omega
    | ⟨2, _⟩ => show win1_3.index t (2 : Fin 3) * 2048 + 1 * j.val = j.val; omega
  · show d.val = win1_4.index t (2 : Fin 3) * 256 + 1 * d.val; omega

/-- An index of the output array is in point `t`'s block iff each coordinate is in the block's range on its axis. -/
theorem mem_blk (t : Fin cfg1.N) (i : S16x2048x256.Idx) :
    i ∈ ((cfg1.win 4).blk t).view.set ↔ ∀ a : Fin 3, win1_4.index t a * S1x512x256.size a ≤ (i a).val ∧ (i a).val < win1_4.index t a * S1x512x256.size a + S1x512x256.size a := by
  show i ∈ ((View.whole main_v9).slice (win1_4.rect t)).set ↔ _
  rw [View.set_slice_whole, Rect.mem_set_unit]
  exact Iff.rfl

/-- Every index of the output array lies in some grid point's block: row p of batch b in the block of (b, p / 512). -/
theorem cover (i : S16x2048x256.Idx) :
    ∃ t : Fin cfg1.N, (cfg1.win 4).flush t = true ∧ i ∈ ((cfg1.win 4).blk t).view.set := by
  have hi0 : (i 0).val < 16 := (i 0).isLt
  have hi1 : (i 1).val < 2048 := (i 1).isLt
  have hi2 : (i 2).val < 256 := (i 2).isLt
  obtain ⟨t, ht⟩ := idx_onto ⟨(i 0).val, hi0⟩ ⟨(i 1).val / 512, by omega⟩
  have q0 : win1_4.index t (0 : Fin 3) = (i 0).val := congrFun ht 0
  have q1 : win1_4.index t (1 : Fin 3) = (i 1).val / 512 := congrFun ht 1
  have q2 : win1_4.index t (2 : Fin 3) = 0 := congrFun ht 2
  refine ⟨t, flush1_4 t, ?_⟩
  rw [mem_blk]
  intro a
  match a with
  | ⟨0, _⟩ => show win1_4.index t (0 : Fin 3) * 1 ≤ (i 0).val ∧ (i 0).val < win1_4.index t (0 : Fin 3) * 1 + 1; omega
  | ⟨1, _⟩ => show win1_4.index t (1 : Fin 3) * 512 ≤ (i 1).val ∧ (i 1).val < win1_4.index t (1 : Fin 3) * 512 + 512; omega
  | ⟨2, _⟩ => show win1_4.index t (2 : Fin 3) * 256 ≤ (i 2).val ∧ (i 2).val < win1_4.index t (2 : Fin 3) * 256 + 256; omega

/-- The output array after the call: the attended array of the arrays the call finds. -/
theorem final (c : Dev nD) :
    (dat1 V c).arrAt 4 cfg1.N
      = attendArr (Ideal.ofBits .f32 0x3D800000#32) (V c main_arg2) (V c main_v6) (V c main_arg0) (V c main_v8) :=
  (dat1 V c).arrAt_eq_of_cover 4 _ (fun t _ => flushed_eq V c t) cover

end Region1

end Cert.KernelIdeal.Blocks

end
-- ==== Proof.KernelValue.lean ====
/-
  What the idealized kernel's two result buffers hold at the end, as functions of the four arguments.

  The first call is entered after the host has turned the two integer masks into extended reals and given each a
  unit middle axis; it reads the premises as queries and the hypotheses as keys, and its output array is not touched
  again. The second call is entered after the host has done the same again; neither the host nor the first call has
  changed an argument, so it finds the hypotheses as queries and the premises as keys. Each output is therefore the
  program's attention direction of the arguments as launched.
-/
import proofs.«137487_j84456236908627_1_alg».proof.Proof.Gen.KernelIdeal.Frame
import proofs.«137487_j84456236908627_1_alg».proof.Proof.KernelBlocks
import Idealize.ShloMosaic.Lib.StableHlo.Run

set_option maxRecDepth 16384

noncomputable section

namespace Cert.KernelIdeal.Outputs

open Idealize.ShloMosaic Idealize.ShloMosaic.TcCoe Idealize.ShloMosaic.ValueIdx Idealize.SL.Sem Idealize.ShloMosaic.StableHlo
open Idealize.ShloMosaic.Pipeline (Dat Cfg Window)
open Cert.KernelIdeal Cert.KernelIdeal.Gen Cert.Attend

variable (m : (ℓ : Loc nD τ sig) → Buf (Elt Ideal) ℓ) (ρ : Dev nD → PrngReg)

/-- An integer mask converted and given a unit middle axis is the mask array of the specification. -/
theorem cast_mask (x : S16x2048.Idx → BitVec 32) (h : S16x2048.ShapeCasts S16x1x2048) :
    shapeCast S16x1x2048 (sitofp (F := Ideal) .f32 x) h = maskArr x := by
  funext i
  obtain ⟨b, u, p, rfl⟩ : ∃ (b : Fin 16) (u : Fin 1) (p : Fin 2048), i = ix3 b u p := ⟨i 0, i 1, i 2, eq_ix3 i⟩
  refine (shapeCast_apply (sitofp (F := Ideal) .f32 x) h (ix3 b u p) (ix2 b p) ?_).trans rfl
  have hu : u.val = 0 := by omega
  rw [Shape.rowMajor_val_two, Shape.rowMajor_val_three]
  show b.val * 2048 + p.val = (b.val * 1 + u.val) * 2048 + p.val
  omega

/-- No operation of the first host stretch writes an argument. -/
theorem keeps0 (W : Valuation τ sig (Elt Ideal)) (b : Ref sig .tc)
    (hb : b = main_arg0 ∨ b = main_arg1 ∨ b = main_arg2 ∨ b = main_arg3) :
    StableHlo.after hostOps0 W (Proc.devRef .tc b) = W (Proc.devRef .tc b) := by
  refine StableHlo.after_of_forall_not_mem _ _ (List.forall_iff_forall_mem.mp ?_)
  simp only [hostOps0, List.Forall, StableHlo.unary_writes, StableHlo.reshape_writes, Finset.mem_singleton]
  rcases hb with rfl | rfl | rfl | rfl <;>
    (repeat' apply And.intro) <;> exact StableHlo.devRef_ne_of_ne (by decide)

/-- No operation of the second host stretch writes an argument or the first call's output. -/
theorem keeps1 (W : Valuation τ sig (Elt Ideal)) (b : Ref sig .tc)
    (hb : b = main_arg0 ∨ b = main_arg1 ∨ b = main_arg2 ∨ b = main_arg3 ∨ b = main_v4) :
    StableHlo.after hostOps1 W (Proc.devRef .tc b) = W (Proc.devRef .tc b) := by
  refine StableHlo.after_of_forall_not_mem _ _ (List.forall_iff_forall_mem.mp ?_)
  simp only [hostOps1, List.Forall, StableHlo.unary_writes, StableHlo.reshape_writes, Finset.mem_singleton]
  rcases hb with rfl | rfl | rfl | rfl | rfl <;>
    (repeat' apply And.intro) <;> exact StableHlo.devRef_ne_of_ne (by decide)

/-! ## The first call's operands, as it finds them -/

theorem V1_arg0 (c : Dev nD) : V1 m ρ c main_arg0 = m ((c : Thread nD τ).loc main_arg0) :=
  keeps0 (W0 m ρ c) main_arg0 (.inl rfl)
theorem V1_arg2 (c : Dev nD) : V1 m ρ c main_arg2 = m ((c : Thread nD τ).loc main_arg2) :=
  keeps0 (W0 m ρ c) main_arg2 (.inr (.inr (.inl rfl)))
theorem V1_v1 (c : Dev nD) : V1 m ρ c main_v1 = maskArr (m ((c : Thread nD τ).loc main_arg1)) := by
  refine Eq.trans ?_ (cast_mask (m ((c : Thread nD τ).loc main_arg1)) Facts₀.shapeCasts_S16x2048_S16x1x2048)
  show StableHlo.after hostOps0 (W0 m ρ c) (Proc.devRef .tc main_v1) = _
  after_results
  rfl
theorem V1_v3 (c : Dev nD) : V1 m ρ c main_v3 = maskArr (m ((c : Thread nD τ).loc main_arg3)) := by
  refine Eq.trans ?_ (cast_mask (m ((c : Thread nD τ).loc main_arg3)) Facts₀.shapeCasts_S16x2048_S16x1x2048)
  show StableHlo.after hostOps0 (W0 m ρ c) (Proc.devRef .tc main_v3) = _
  after_results
  rfl

/-! ## The arguments after the first call -/

theorem W2_arg1 (c : Dev nD) : W2 m ρ c (Proc.devRef .tc main_arg1) = m ((c : Thread nD τ).loc main_arg1) :=
  (W2_of_ne m ρ c main_arg1 (by decide)).trans (keeps0 (W0 m ρ c) main_arg1 (.inr (.inl rfl)))
theorem W2_arg3 (c : Dev nD) : W2 m ρ c (Proc.devRef .tc main_arg3) = m ((c : Thread nD τ).loc main_arg3) :=
  (W2_of_ne m ρ c main_arg3 (by decide)).trans (keeps0 (W0 m ρ c) main_arg3 (.inr (.inr (.inr rfl))))
theorem W2_arg0 (c : Dev nD) : W2 m ρ c (Proc.devRef .tc main_arg0) = m ((c : Thread nD τ).loc main_arg0) :=
  ((W2_arr m ρ c 0).trans (((dat0 (V1 m ρ) c).arrAt_in 0 rfl _).trans (A_eq0 (V1 m ρ) c 0))).trans (V1_arg0 m ρ c)
theorem W2_arg2 (c : Dev nD) : W2 m ρ c (Proc.devRef .tc main_arg2) = m ((c : Thread nD τ).loc main_arg2) :=
  ((W2_arr m ρ c 2).trans (((dat0 (V1 m ρ) c).arrAt_in 2 rfl _).trans (A_eq0 (V1 m ρ) c 2))).trans (V1_arg2 m ρ c)

/-! ## The second call's operands, as it finds them -/

theorem V3_arg0 (c : Dev nD) : V3 m ρ c main_arg0 = m ((c : Thread nD τ).loc main_arg0) :=
  (keeps1 (W2 m ρ c) main_arg0 (.inl rfl)).trans (W2_arg0 m ρ c)
theorem V3_arg2 (c : Dev nD) : V3 m ρ c main_arg2 = m ((c : Thread nD τ).loc main_arg2) :=
  (keeps1 (W2 m ρ c) main_arg2 (.inr (.inr (.inl rfl)))).trans (W2_arg2 m ρ c)
theorem V3_v6 (c : Dev nD) : V3 m ρ c main_v6 = maskArr (m ((c : Thread nD τ).loc main_arg3)) := by
  refine Eq.trans ?_ (cast_mask (m ((c : Thread nD τ).loc main_arg3)) Facts₀.shapeCasts_S16x2048_S16x1x2048)
  show StableHlo.after hostOps1 (W2 m ρ c) (Proc.devRef .tc main_v6) = _
  after_results
  rw [W2_arg3]
  rfl
theorem V3_v8 (c : Dev nD) : V3 m ρ c main_v8 = maskArr (m ((c : Thread nD τ).loc main_arg1)) := by
  refine Eq.trans ?_ (cast_mask (m ((c : Thread nD τ).loc main_arg1)) Facts₀.shapeCasts_S16x2048_S16x1x2048)
  show StableHlo.after hostOps1 (W2 m ρ c) (Proc.devRef .tc main_v8) = _
  after_results
  rw [W2_arg1]
  rfl

/-! ## The two results -/

/-- The first result: the premises attend to the hypotheses. -/
theorem out0 (c : Dev nD) :
    W4 m ρ c (Proc.devRef .tc main_v4)
      = attendOut (m ((c : Thread nD τ).loc main_arg0)) (m ((c : Thread nD τ).loc main_arg1))
          (m ((c : Thread nD τ).loc main_arg2)) (m ((c : Thread nD τ).loc main_arg3)) := by
  refine ((W4_of_ne m ρ c main_v4 (by decide)).trans ((keeps1 (W2 m ρ c) main_v4 (.inr (.inr (.inr (.inr rfl))))).trans
    ((W2_arr m ρ c 4).trans (Blocks.Region0.final (V1 m ρ) c)))).trans ?_
  rw [V1_arg0, V1_v1, V1_arg2, V1_v3, scale_word]
  exact attendArr_masks _ _ _ _

/-- The second result: the hypotheses attend to the premises. -/
theorem out1 (c : Dev nD) :
    W4 m ρ c (Proc.devRef .tc main_v9)
      = attendOut (m ((c : Thread nD τ).loc main_arg2)) (m ((c : Thread nD τ).loc main_arg3))
          (m ((c : Thread nD τ).loc main_arg0)) (m ((c : Thread nD τ).loc main_arg1)) := by
  refine ((W4_arr m ρ c 4).trans (Blocks.Region1.final (V3 m ρ) c)).trans ?_
  rw [V3_arg2, V3_v6, V3_arg0, V3_v8, scale_word]
  exact attendArr_masks _ _ _ _

end Cert.KernelIdeal.Outputs

end
-- ==== Proof.LibLaneFold.lean ====
/-
  Reductions along the last axis, read at one index, for any extents.

  A host reduction of an [a, b] array along axis 1 by a commutative and associative operation holds, at row
  p, the fold of the operation from the initial value over the entries (p, k), k < b. A kernel's minimum or
  maximum reduction of an [a, b, c] array along axis 2, from the value a starting word denotes, holds at
  (p, q) the fold of `min` or `max` from that value over the entries (p, q, k), k < c. Each holds for
  arbitrary proofs of the operation's side conditions and depends on no program.
-/
import Idealize.ShloMosaic.Lib.ValueIdx
import Idealize.ShloMosaic.PureOps.Ideal.Laws
import Idealize.ShloMosaic.PureOps.Reduce

noncomputable section

namespace Cert.LaneFold

open Idealize.ShloMosaic Idealize.ShloMosaic.ValueIdx

/-- Row p of an [a, b] array with column k put back is (p, k). -/
theorem lift_row {a b : ℕ} (h : (⟨2, ![a, b]⟩ : Shape).Reduces [1] ⟨1, ![a]⟩) (p : Fin a) (k : Fin b) :
    h.lift (ix1 p) k = ix2 p k := by
  funext c; apply Fin.ext
  match c with
  | ⟨0, _⟩ => rfl
  | ⟨1, _⟩ => rfl

/-- Line (p, q) of an [a, b, c] array with lane k put back is (p, q, k). -/
theorem lift_lane {a b c : ℕ} (h : (⟨3, ![a, b, c]⟩ : Shape).Reduces [2] ⟨2, ![a, b]⟩) (p : Fin a) (q : Fin b) (k : Fin c) :
    h.lift (ix2 p q) k = ix3 p q k := by
  funext d; apply Fin.ext
  match d with
  | ⟨0, _⟩ => rfl
  | ⟨1, _⟩ => rfl
  | ⟨2, _⟩ => rfl

/-- A host reduction of an [a, b] array along axis 1, at row p: the fold over that row from the initial value. -/
theorem host_row_fold {a b : ℕ} {u : Shape} {α : Type} (f : α → α → α) [Std.Commutative f] [Std.Associative f]
    (v : (⟨2, ![a, b]⟩ : Shape).Idx → α) (init : u.Idx → α)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce f v init h' hu (ix1 p)
      = (Finset.univ : Finset (Fin b)).fold f (init (Shape.Idx.first hu)) fun k => v (ix2 p k) :=
  (Host.reduce_eq_fold_single f v init h' h hu (ix1 p)).trans
    (congrArg (fun g => Finset.fold f (init (Shape.Idx.first hu)) g (Finset.univ : Finset (Fin b)))
      (funext fun k => congrArg v (lift_row h p k)))

/-- A kernel's maximum along the last axis of an [a, b, c] array, at (p, q): the fold of `max` over that line. -/
theorem lane_max {a b c : ℕ} (v : FVec Ideal ⟨3, ![a, b, c]⟩ .f32) (acc : BitVec (FTy.f32).bits)
    (h : (⟨3, ![a, b, c]⟩ : Shape).Reduces [2] ⟨2, ![a, b]⟩)
    (hφ : FKind.Formats .f32) (hacc : acc = FKind.maximumf.neutral .f32 hφ) (p : Fin a) (q : Fin b) :
    multiReduction .maximumf [2] ⟨2, ![a, b]⟩ v acc h hφ hacc (ix2 p q)
      = (Finset.univ : Finset (Fin c)).fold max (Ideal.ofBits .f32 acc) fun k => v (ix3 p q k) :=
  (Ideal.multiReduction_maximumf_single v acc h hφ hacc (ix2 p q)).trans
    (congrArg (fun g => Finset.fold max (Ideal.ofBits .f32 acc) g (Finset.univ : Finset (Fin c)))
      (funext fun k => congrArg v (lift_lane h p q k)))

/-- A kernel's minimum along the last axis of an [a, b, c] array, at (p, q): the fold of `min` over that line. -/
theorem lane_min {a b c : ℕ} (v : FVec Ideal ⟨3, ![a, b, c]⟩ .f32) (acc : BitVec (FTy.f32).bits)
    (h : (⟨3, ![a, b, c]⟩ : Shape).Reduces [2] ⟨2, ![a, b]⟩)
    (hφ : FKind.Formats .f32) (hacc : acc = FKind.minimumf.neutral .f32 hφ) (p : Fin a) (q : Fin b) :
    multiReduction .minimumf [2] ⟨2, ![a, b]⟩ v acc h hφ hacc (ix2 p q)
      = (Finset.univ : Finset (Fin c)).fold min (Ideal.ofBits .f32 acc) fun k => v (ix3 p q k) :=
  ((multiReduction_minimumf_eq_fold v acc h hφ hacc (ix2 p q)).trans
      (h.fold_filter_drop_single _ _ v (ix2 p q))).trans
    (congrArg (fun g => Finset.fold min (Ideal.ofBits .f32 acc) g (Finset.univ : Finset (Fin c)))
      (funext fun k => congrArg v (lift_lane h p q k)))

end Cert.LaneFold

end
-- ==== Proof.LibHostLaneFold.lean ====
/-
  A host reduction along the last axis of a rank-3 array, read at one index, for any extents.

  A host reduction of an [a, b, c] array along axis 2 by a commutative and associative operation holds, at (p, q), the
  fold of the operation from the initial value over the entries (p, q, k), k < c. It holds for arbitrary proofs of the
  operation's side conditions and depends on no program.
-/
import proofs.«137487_j84456236908627_1_alg».proof.Proof.LibLaneFold

noncomputable section

namespace Cert.HostLaneFold

open Idealize.ShloMosaic Idealize.ShloMosaic.ValueIdx

/-- A host reduction of an [a, b, c] array along axis 2, at (p, q): the fold over that line from the initial value. -/
theorem host_lane_fold {a b c : ℕ} {u : Shape} {α : Type} (f : α → α → α) [Std.Commutative f] [Std.Associative f]
    (v : (⟨3, ![a, b, c]⟩ : Shape).Idx → α) (init : u.Idx → α)
    (h' : (⟨3, ![a, b, c]⟩ : Shape).ReducesTo [2] ⟨2, ![a, b]⟩) (h : (⟨3, ![a, b, c]⟩ : Shape).Reduces [2] ⟨2, ![a, b]⟩)
    (hu : 0 < u.numel) (p : Fin a) (q : Fin b) :
    Host.reduce f v init h' hu (ix2 p q)
      = (Finset.univ : Finset (Fin c)).fold f (init (Shape.Idx.first hu)) fun k => v (ix3 p q k) :=
  (Host.reduce_eq_fold_single f v init h' h hu (ix2 p q)).trans
    (congrArg (fun g => Finset.fold f (init (Shape.Idx.first hu)) g (Finset.univ : Finset (Fin c)))
      (funext fun k => congrArg v (Cert.LaneFold.lift_lane h p q k)))

end Cert.HostLaneFold

end
-- ==== Proof.RefValue.lean ====
/-
  The reference program's two results, as functions of the four arguments.

  The reference forms the whole 2048 x 2048 similarity matrix of a batch once — the premises against the hypotheses,
  scaled by one over the square root of 256 — and uses it as it is for the first direction and transposed for the second.
  Row by row each direction is the masked attention of the specification: the maximum with −∞ that precedes the
  subtraction changes nothing, a sum that starts from the zero word is the sum, one over the square root of 256 is one
  sixteenth, and the transposed similarity is the similarity with the two factors under the contraction exchanged.
-/
import proofs.«137487_j84456236908627_1_alg».proof.Proof.Gen.ReferenceIdeal.Read
import proofs.«137487_j84456236908627_1_alg».proof.Proof.Attend
import proofs.«137487_j84456236908627_1_alg».proof.Proof.LibHostLaneFold
import Idealize.ShloMosaic.PureOps.Ideal.Laws

set_option maxRecDepth 16384

noncomputable section

namespace Cert.ReferenceIdeal.RefValue

open Idealize.ShloMosaic Idealize.ShloMosaic.ValueIdx Cert.ReferenceIdeal Cert.ReferenceIdeal.Read Cert.Attend

/-- An equation between two indices of rank 3 (rank 2), coordinate by coordinate. -/
local macro "idx3" : tactic =>
  `(tactic| (funext a; apply Fin.ext; match a with | ⟨0, _⟩ => rfl | ⟨1, _⟩ => rfl | ⟨2, _⟩ => rfl))
local macro "idx2" : tactic =>
  `(tactic| (funext a; apply Fin.ext; match a with | ⟨0, _⟩ => rfl | ⟨1, _⟩ => rfl))

/-- The word of −∞ denotes the least extended real, so the maximum with it changes nothing. -/
theorem max_negInf (y : EReal) : max negInf y = y := by
  have h : negInf = ⊥ := by unfold negInf; simp [Ideal.ofBits, Ideal.ieee]
  rw [h]
  exact max_eq_right bot_le

/-- A sum started from the zero word is the sum. -/
theorem zero_word_add (y : EReal) : Ideal.ofBits .f32 0x00000000#32 + y = y := by
  rw [Ideal.ofBits_zero_f32, zero_add]

/-- The scores of premise position r of batch b against every hypothesis position. -/
def row1 (x0 x2 : (⟨S16x2048x256, .f32⟩ : BufTy).Contents (Elt Ideal)) (x3 : (⟨S16x2048, .i32⟩ : BufTy).Contents (Elt Ideal))
    (b : Fin 16) (r : Fin 2048) : Fin 2048 → EReal :=
  score sixteenth (fun d => x0 (ix3 b r d)) (fun j d => x2 (ix3 b j d)) (maskVal x3 b)

/-- The scores of hypothesis position r of batch b against every premise position. -/
def row2 (x0 : (⟨S16x2048x256, .f32⟩ : BufTy).Contents (Elt Ideal)) (x1 : (⟨S16x2048, .i32⟩ : BufTy).Contents (Elt Ideal))
    (x2 : (⟨S16x2048x256, .f32⟩ : BufTy).Contents (Elt Ideal)) (b : Fin 16) (r : Fin 2048) : Fin 2048 → EReal :=
  score sixteenth (fun d => x2 (ix3 b r d)) (fun j d => x0 (ix3 b j d)) (maskVal x1 b)

/-- The scaled similarity of premise position p with hypothesis position h. -/
theorem sim_apply (x0 x2 : (⟨S16x2048x256, .f32⟩ : BufTy).Contents (Elt Ideal)) (b : Fin 16) (p h : Fin 2048) :
    val_main_v4 (F := Ideal) x0 x2 (ix3 b p h) = (∑ d : Fin 256, x0 (ix3 b p d) * x2 (ix3 b h d)) * sixteenth := by
  rw [val_main_v4_apply, val_main_v2_apply, val_main_v3_apply, val_main_v1_apply, val_main_cst_0_apply, val_main_v0_apply,
    val_main_cst_apply]
  have e1 : ∀ k, lidx_main_v2 (ix3 b p h) k = ix3 b p k := fun k => by idx3
  have e2 : ∀ k, ridx_main_v2 (ix3 b p h) k = ix3 b h k := fun k => by idx3
  simp only [e1, e2]
  exact congrArg (fun t => (∑ d : Fin 256, x0 (ix3 b p d) * x2 (ix3 b h d)) * t) scale_quotient

/-! ## Direction 1: the premises attend to the hypotheses -/

/-- The masked, scaled similarity of premise position r with hypothesis position c. -/
theorem score_1 (x0 x2 : (⟨S16x2048x256, .f32⟩ : BufTy).Contents (Elt Ideal)) (x3 : (⟨S16x2048, .i32⟩ : BufTy).Contents (Elt Ideal)) (b : Fin 16) (r c : Fin 2048) :
    val_main_v9 (F := Ideal) x0 x2 x3 (ix3 b r c) = (row1 x0 x2 x3 b r) c := by
  rw [val_main_v9_apply, sim_apply, val_main_v8_apply, val_main_v7_apply, val_main_v6_apply]
  have e : idx_main_v7 (idx_main_v8 (ix3 b r c)) = ix2 b c := by idx2
  rw [e]
  rfl

/-- The row maximum, folded from −∞. -/
theorem rowmax_1 (x0 x2 : (⟨S16x2048x256, .f32⟩ : BufTy).Contents (Elt Ideal)) (x3 : (⟨S16x2048, .i32⟩ : BufTy).Contents (Elt Ideal)) (b : Fin 16) (r : Fin 2048) :
    val_main_v12 (F := Ideal) x0 x2 x3 (ix2 b r) = (Finset.univ : Finset (Fin 2048)).fold max negInf (row1 x0 x2 x3 b r) := by
  rw [val_main_v12_apply, val_main_v11_apply, val_main_cst_2_apply]
  have hred : val_main_v10 (F := Ideal) x0 x2 x3 (ix2 b r) = (Finset.univ : Finset (Fin 2048)).fold max negInf (row1 x0 x2 x3 b r) := by
    unfold val_main_v10
    refine (Cert.HostLaneFold.host_lane_fold (FloatOps.maximumf (F := Ideal) (φ := .f32)) (val_main_v9 (F := Ideal) x0 x2 x3)
      (val_main_cst_1 (F := Ideal)) _ (by decide) _ b r).trans ?_
    rw [show (fun k => val_main_v9 (F := Ideal) x0 x2 x3 (ix3 b r k)) = (row1 x0 x2 x3 b r) from funext fun k => score_1 x0 x2 x3 b r k]
    rfl
  rw [hred]
  exact max_negInf _

/-- The exponential of a score less its row's maximum. -/
theorem expo_1 (x0 x2 : (⟨S16x2048x256, .f32⟩ : BufTy).Contents (Elt Ideal)) (x3 : (⟨S16x2048, .i32⟩ : BufTy).Contents (Elt Ideal)) (b : Fin 16) (r c : Fin 2048) :
    val_main_v16 (F := Ideal) x0 x2 x3 (ix3 b r c) = expo (row1 x0 x2 x3 b r) c := by
  rw [val_main_v16_apply, val_main_v15_apply, score_1, val_main_v14_apply, val_main_v13_apply]
  have e : idx_main_v13 (idx_main_v14 (ix3 b r c)) = ix2 b r := by idx2
  rw [e, rowmax_1]
  rfl

/-- The row's sum of exponentials. -/
theorem expsum_1 (x0 x2 : (⟨S16x2048x256, .f32⟩ : BufTy).Contents (Elt Ideal)) (x3 : (⟨S16x2048, .i32⟩ : BufTy).Contents (Elt Ideal)) (b : Fin 16) (r : Fin 2048) :
    val_main_v17 (F := Ideal) x0 x2 x3 (ix2 b r) = ∑ c : Fin 2048, expo (row1 x0 x2 x3 b r) c := by
  rw [val_main_v17_apply, val_main_cst_3_apply]
  have e : ∀ k, idx_main_v17 (ix2 b r) k = ix3 b r k := fun k => by idx3
  simp only [e, expo_1]
  exact zero_word_add _

/-- The softmax, masked. -/
theorem smax_1 (x0 x2 : (⟨S16x2048x256, .f32⟩ : BufTy).Contents (Elt Ideal)) (x3 : (⟨S16x2048, .i32⟩ : BufTy).Contents (Elt Ideal)) (b : Fin 16) (r c : Fin 2048) :
    val_main_v22 (F := Ideal) x0 x2 x3 (ix3 b r c) = smax (row1 x0 x2 x3 b r) (maskVal x3 b) c := by
  rw [val_main_v22_apply, val_main_v20_apply, expo_1, val_main_v19_apply, val_main_v18_apply, val_main_v21_apply, val_main_v7_apply, val_main_v6_apply]
  have e1 : idx_main_v18 (idx_main_v19 (ix3 b r c)) = ix2 b r := by idx2
  have e2 : idx_main_v7 (idx_main_v21 (ix3 b r c)) = ix2 b c := by idx2
  rw [e1, e2, expsum_1]
  rfl

/-- The row's sum of the masked softmax. -/
theorem smaxsum_1 (x0 x2 : (⟨S16x2048x256, .f32⟩ : BufTy).Contents (Elt Ideal)) (x3 : (⟨S16x2048, .i32⟩ : BufTy).Contents (Elt Ideal)) (b : Fin 16) (r : Fin 2048) :
    val_main_v23 (F := Ideal) x0 x2 x3 (ix2 b r) = ∑ c : Fin 2048, smax (row1 x0 x2 x3 b r) (maskVal x3 b) c := by
  rw [val_main_v23_apply, val_main_cst_4_apply]
  have e : ∀ k, idx_main_v23 (ix2 b r) k = ix3 b r k := fun k => by idx3
  simp only [e, smax_1]
  exact zero_word_add _

/-- The renormalised weights. -/
theorem weight_1 (x0 x2 : (⟨S16x2048x256, .f32⟩ : BufTy).Contents (Elt Ideal)) (x3 : (⟨S16x2048, .i32⟩ : BufTy).Contents (Elt Ideal)) (b : Fin 16) (r c : Fin 2048) :
    val_main_v28 (F := Ideal) x0 x2 x3 (ix3 b r c) = weight (row1 x0 x2 x3 b r) (maskVal x3 b) c := by
  rw [val_main_v28_apply, smax_1, val_main_v27_apply, val_main_v26_apply, val_main_v24_apply, val_main_v25_apply, val_main_cst_5_apply]
  have e : idx_main_v24 (idx_main_v27 (ix3 b r c)) = ix2 b r := by idx2
  rw [e, smaxsum_1]
  rfl

/-! ## Direction 2: the hypotheses attend to the premises -/

/-- The masked, scaled similarity of hypothesis position r with premise position c: the transposed similarity, the
    two factors under the contraction in the other order. -/
theorem score_2 (x0 : (⟨S16x2048x256, .f32⟩ : BufTy).Contents (Elt Ideal)) (x1 : (⟨S16x2048, .i32⟩ : BufTy).Contents (Elt Ideal)) (x2 : (⟨S16x2048x256, .f32⟩ : BufTy).Contents (Elt Ideal)) (b : Fin 16) (r c : Fin 2048) :
    val_main_v32 (F := Ideal) x0 x1 x2 (ix3 b r c) = (row2 x0 x1 x2 b r) c := by
  rw [val_main_v32_apply, val_main_v29_apply, val_main_v31_apply, val_main_v30_apply, val_main_v5_apply]
  have e1 : idx_main_v29 (ix3 b r c) = ix3 b c r := by idx3
  have e2 : idx_main_v30 (idx_main_v31 (ix3 b r c)) = ix2 b c := by idx2
  rw [e1, e2, sim_apply]
  exact score_comm sixteenth (fun d => x2 (ix3 b r d)) (fun j d => x0 (ix3 b j d)) (maskVal x1 b) c

/-- The row maximum, folded from −∞. -/
theorem rowmax_2 (x0 : (⟨S16x2048x256, .f32⟩ : BufTy).Contents (Elt Ideal)) (x1 : (⟨S16x2048, .i32⟩ : BufTy).Contents (Elt Ideal)) (x2 : (⟨S16x2048x256, .f32⟩ : BufTy).Contents (Elt Ideal)) (b : Fin 16) (r : Fin 2048) :
    val_main_v35 (F := Ideal) x0 x1 x2 (ix2 b r) = (Finset.univ : Finset (Fin 2048)).fold max negInf (row2 x0 x1 x2 b r) := by
  rw [val_main_v35_apply, val_main_v34_apply, val_main_cst_7_apply]
  have hred : val_main_v33 (F := Ideal) x0 x1 x2 (ix2 b r) = (Finset.univ : Finset (Fin 2048)).fold max negInf (row2 x0 x1 x2 b r) := by
    unfold val_main_v33
    refine (Cert.HostLaneFold.host_lane_fold (FloatOps.maximumf (F := Ideal) (φ := .f32)) (val_main_v32 (F := Ideal) x0 x1 x2)
      (val_main_cst_6 (F := Ideal)) _ (by decide) _ b r).trans ?_
    rw [show (fun k => val_main_v32 (F := Ideal) x0 x1 x2 (ix3 b r k)) = (row2 x0 x1 x2 b r) from funext fun k => score_2 x0 x1 x2 b r k]
    rfl
  rw [hred]
  exact max_negInf _

/-- The exponential of a score less its row's maximum. -/
theorem expo_2 (x0 : (⟨S16x2048x256, .f32⟩ : BufTy).Contents (Elt Ideal)) (x1 : (⟨S16x2048, .i32⟩ : BufTy).Contents (Elt Ideal)) (x2 : (⟨S16x2048x256, .f32⟩ : BufTy).Contents (Elt Ideal)) (b : Fin 16) (r c : Fin 2048) :
    val_main_v39 (F := Ideal) x0 x1 x2 (ix3 b r c) = expo (row2 x0 x1 x2 b r) c := by
  rw [val_main_v39_apply, val_main_v38_apply, score_2, val_main_v37_apply, val_main_v36_apply]
  have e : idx_main_v36 (idx_main_v37 (ix3 b r c)) = ix2 b r := by idx2
  rw [e, rowmax_2]
  rfl

/-- The row's sum of exponentials. -/
theorem expsum_2 (x0 : (⟨S16x2048x256, .f32⟩ : BufTy).Contents (Elt Ideal)) (x1 : (⟨S16x2048, .i32⟩ : BufTy).Contents (Elt Ideal)) (x2 : (⟨S16x2048x256, .f32⟩ : BufTy).Contents (Elt Ideal)) (b : Fin 16) (r : Fin 2048) :
    val_main_v40 (F := Ideal) x0 x1 x2 (ix2 b r) = ∑ c : Fin 2048, expo (row2 x0 x1 x2 b r) c := by
  rw [val_main_v40_apply, val_main_cst_8_apply]
  have e : ∀ k, idx_main_v40 (ix2 b r) k = ix3 b r k := fun k => by idx3
  simp only [e, expo_2]
  exact zero_word_add _

/-- The softmax, masked. -/
theorem smax_2 (x0 : (⟨S16x2048x256, .f32⟩ : BufTy).Contents (Elt Ideal)) (x1 : (⟨S16x2048, .i32⟩ : BufTy).Contents (Elt Ideal)) (x2 : (⟨S16x2048x256, .f32⟩ : BufTy).Contents (Elt Ideal)) (b : Fin 16) (r c : Fin 2048) :
    val_main_v45 (F := Ideal) x0 x1 x2 (ix3 b r c) = smax (row2 x0 x1 x2 b r) (maskVal x1 b) c := by
  rw [val_main_v45_apply, val_main_v43_apply, expo_2, val_main_v42_apply, val_main_v41_apply, val_main_v44_apply, val_main_v30_apply, val_main_v5_apply]
  have e1 : idx_main_v41 (idx_main_v42 (ix3 b r c)) = ix2 b r := by idx2
  have e2 : idx_main_v30 (idx_main_v44 (ix3 b r c)) = ix2 b c := by idx2
  rw [e1, e2, expsum_2]
  rfl

/-- The row's sum of the masked softmax. -/
theorem smaxsum_2 (x0 : (⟨S16x2048x256, .f32⟩ : BufTy).Contents (Elt Ideal)) (x1 : (⟨S16x2048, .i32⟩ : BufTy).Contents (Elt Ideal)) (x2 : (⟨S16x2048x256, .f32⟩ : BufTy).Contents (Elt Ideal)) (b : Fin 16) (r : Fin 2048) :
    val_main_v46 (F := Ideal) x0 x1 x2 (ix2 b r) = ∑ c : Fin 2048, smax (row2 x0 x1 x2 b r) (maskVal x1 b) c := by
  rw [val_main_v46_apply, val_main_cst_9_apply]
  have e : ∀ k, idx_main_v46 (ix2 b r) k = ix3 b r k := fun k => by idx3
  simp only [e, smax_2]
  exact zero_word_add _

/-- The renormalised weights. -/
theorem weight_2 (x0 : (⟨S16x2048x256, .f32⟩ : BufTy).Contents (Elt Ideal)) (x1 : (⟨S16x2048, .i32⟩ : BufTy).Contents (Elt Ideal)) (x2 : (⟨S16x2048x256, .f32⟩ : BufTy).Contents (Elt Ideal)) (b : Fin 16) (r c : Fin 2048) :
    val_main_v51 (F := Ideal) x0 x1 x2 (ix3 b r c) = weight (row2 x0 x1 x2 b r) (maskVal x1 b) c := by
  rw [val_main_v51_apply, smax_2, val_main_v50_apply, val_main_v49_apply, val_main_v47_apply, val_main_v48_apply, val_main_cst_10_apply]
  have e : idx_main_v47 (idx_main_v50 (ix3 b r c)) = ix2 b r := by idx2
  rw [e, smaxsum_2]
  rfl

/-! ## The two results -/

/-- The first result at (b, p, d). -/
theorem out0_apply (x0 : (⟨S16x2048x256, .f32⟩ : BufTy).Contents (Elt Ideal)) (x1 : (⟨S16x2048, .i32⟩ : BufTy).Contents (Elt Ideal))
    (x2 : (⟨S16x2048x256, .f32⟩ : BufTy).Contents (Elt Ideal)) (x3 : (⟨S16x2048, .i32⟩ : BufTy).Contents (Elt Ideal))
    (b : Fin 16) (p : Fin 2048) (d : Fin 256) :
    val_main_v55 (F := Ideal) x0 x1 x2 x3 (ix3 b p d) = attendOutAt x0 x1 x2 x3 b p d := by
  rw [val_main_v55_apply, val_main_v52_apply, val_main_v54_apply, val_main_v53_apply, val_main_v5_apply]
  have e1 : ∀ k, lidx_main_v52 (ix3 b p d) k = ix3 b p k := fun k => by idx3
  have e2 : ∀ k, ridx_main_v52 (ix3 b p d) k = ix3 b k d := fun k => by idx3
  have e3 : idx_main_v53 (idx_main_v54 (ix3 b p d)) = ix2 b p := by idx2
  simp only [e1, e2, weight_1]
  rw [e3]
  rfl

/-- The second result at (b, h, d). -/
theorem out1_apply (x0 : (⟨S16x2048x256, .f32⟩ : BufTy).Contents (Elt Ideal)) (x1 : (⟨S16x2048, .i32⟩ : BufTy).Contents (Elt Ideal))
    (x2 : (⟨S16x2048x256, .f32⟩ : BufTy).Contents (Elt Ideal)) (x3 : (⟨S16x2048, .i32⟩ : BufTy).Contents (Elt Ideal))
    (b : Fin 16) (h : Fin 2048) (d : Fin 256) :
    val_main_v59 (F := Ideal) x0 x1 x2 x3 (ix3 b h d) = attendOutAt x2 x3 x0 x1 b h d := by
  rw [val_main_v59_apply, val_main_v56_apply, val_main_v58_apply, val_main_v57_apply, val_main_v6_apply]
  have e1 : ∀ k, lidx_main_v56 (ix3 b h d) k = ix3 b h k := fun k => by idx3
  have e2 : ∀ k, ridx_main_v56 (ix3 b h d) k = ix3 b k d := fun k => by idx3
  have e3 : idx_main_v57 (idx_main_v58 (ix3 b h d)) = ix2 b h := by idx2
  simp only [e1, e2, weight_2]
  rw [e3]
  rfl

/-- The first result: the premises attend to the hypotheses. -/
theorem out0 (x0 : (⟨S16x2048x256, .f32⟩ : BufTy).Contents (Elt Ideal)) (x1 : (⟨S16x2048, .i32⟩ : BufTy).Contents (Elt Ideal))
    (x2 : (⟨S16x2048x256, .f32⟩ : BufTy).Contents (Elt Ideal)) (x3 : (⟨S16x2048, .i32⟩ : BufTy).Contents (Elt Ideal)) :
    val_main_v55 (F := Ideal) x0 x1 x2 x3 = attendOut x0 x1 x2 x3 := funext fun i => by
  obtain ⟨b, p, d, rfl⟩ : ∃ (b : Fin 16) (p : Fin 2048) (d : Fin 256), i = ix3 b p d := ⟨i 0, i 1, i 2, eq_ix3 i⟩
  exact out0_apply x0 x1 x2 x3 b p d

/-- The second result: the hypotheses attend to the premises. -/
theorem out1 (x0 : (⟨S16x2048x256, .f32⟩ : BufTy).Contents (Elt Ideal)) (x1 : (⟨S16x2048, .i32⟩ : BufTy).Contents (Elt Ideal))
    (x2 : (⟨S16x2048x256, .f32⟩ : BufTy).Contents (Elt Ideal)) (x3 : (⟨S16x2048, .i32⟩ : BufTy).Contents (Elt Ideal)) :
    val_main_v59 (F := Ideal) x0 x1 x2 x3 = attendOut x2 x3 x0 x1 := funext fun i => by
  obtain ⟨b, h, d, rfl⟩ : ∃ (b : Fin 16) (h : Fin 2048) (d : Fin 256), i = ix3 b h d := ⟨i 0, i 1, i 2, eq_ix3 i⟩
  exact out1_apply x0 x1 x2 x3 b h d

end Cert.ReferenceIdeal.RefValue

end
-- ==== Proof.lean ====
/-
  Bidirectional masked attention: a two-call kernel against a reference that forms the whole similarity matrix.

  Both programs take premises and hypotheses (16 batches of 2048 rows of 256 floats) and an integer mask for each, and
  return, for each direction, softmax(scores · key mask) · key mask, renormalised with ε in the denominator, applied to
  the keys and multiplied by the query mask, the scores being query · key scaled by 1/16. The kernel runs one call per
  direction, each tiled over (batch, 512 query rows) with the batch's whole key array resident; the reference computes
  the 2048 x 2048 similarity once and transposes it for the second direction, spelling the scale 1 / sqrt 256.

  On the extended reals the two agree entry by entry: every stage is the same function of the same row, a change of
  float format is the identity, sqrt 256 = 16, the maximum with −∞ is the identity, and a product under the contraction
  may be written in either order. No step needs the inputs finite. The ideal pass rewrote nothing, so the kernel's
  idealization is its own text.
-/
import proofs.«137487_j84456236908627_1_alg».proof.Defs
import proofs.«137487_j84456236908627_1_alg».proof.Proof.Gen.Kernel
import proofs.«137487_j84456236908627_1_alg».proof.Proof.Gen.Kernel.Skeleton
import proofs.«137487_j84456236908627_1_alg».proof.Proof.Gen.Kernel.Launch
import proofs.«137487_j84456236908627_1_alg».proof.Proof.Gen.Kernel.Points
import proofs.«137487_j84456236908627_1_alg».proof.Proof.Gen.Kernel.Frame
import proofs.«137487_j84456236908627_1_alg».proof.Proof.Gen.KernelIdeal
import proofs.«137487_j84456236908627_1_alg».proof.Proof.Gen.KernelIdeal.Skeleton
import proofs.«137487_j84456236908627_1_alg».proof.Proof.Gen.KernelIdeal.Launch
import proofs.«137487_j84456236908627_1_alg».proof.Proof.Gen.KernelIdeal.Points
import proofs.«137487_j84456236908627_1_alg».proof.Proof.Gen.KernelIdeal.Frame
import proofs.«137487_j84456236908627_1_alg».proof.Proof.Gen.ReferenceIdeal
import proofs.«137487_j84456236908627_1_alg».proof.Proof.Gen.Pre_finite_inputs
import proofs.«137487_j84456236908627_1_alg».proof.Proof.Gen.ReferenceIdeal.Run
import proofs.«137487_j84456236908627_1_alg».proof.Proof.Gen.ReferenceIdeal.Read
import proofs.«137487_j84456236908627_1_alg».proof.Proof.KernelRun
import proofs.«137487_j84456236908627_1_alg».proof.Proof.KernelValue
import proofs.«137487_j84456236908627_1_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, the results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories agreeing on the arguments both programs end with each result at the same attention direction of the
    arguments: the premises attending to the hypotheses, and the hypotheses attending to the premises. -/
theorem algebraic : Cert.algebraic_KernelIdeal_ReferenceIdeal := by
  intro m ρ m' ρ' _ hagree
  refine ⟨fun c => Cert.Attend.attendOut
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3)),
      fun c => Cert.Attend.attendOut
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1)), ?_, ?_⟩
  · exact (θ_run Cert.KernelIdeal.defs _ _).mono
      (fun r h c => ⟨(h c).1.trans (Cert.KernelIdeal.Outputs.out0 m ρ c),
        (h c).2.1.trans (Cert.KernelIdeal.Outputs.out1 m ρ c), (h c).2.2⟩)
      (Cert.KernelIdeal.Named.run (F := Ideal) m ρ)
  · refine (θ_run Cert.ReferenceIdeal.defs _ _).mono (fun r h c => ⟨?_, ?_, (h c).2.2⟩)
      (Cert.ReferenceIdeal.Value.run (F := Ideal) m' ρ')
    · rw [(h c).1, Cert.ReferenceIdeal.Read.val_main_v55_eq, Cert.ReferenceIdeal.RefValue.out0,
        (hagree c).1, (hagree c).2.1, (hagree c).2.2.1, (hagree c).2.2.2]
    · rw [(h c).2.1, Cert.ReferenceIdeal.Read.val_main_v59_eq, Cert.ReferenceIdeal.RefValue.out1,
        (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
